-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S128000x1024 : Shape := ⟨2, ![128000, 1024]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S128000x1024 : S_.BroadcastsInDim S128000x1024 (![] : Fin 0 → Fin S128000x1024.rank)
  reducesTo_S128000x1024_S_d0_1 : S128000x1024.ReducesTo [0, 1] S_

variable [Facts]

def fn {F : FTy → Type} [FloatOps F] (main_arg0 : FVec F S32x1024 .f32) (main_arg1 : FVec F S128000x1024 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S128000x1024 .f32 := Host.absf main_arg1
  let main_cst_0 : FVec F S_ .f32 := constant S_ .f32 0x7F800000#32
  let main_v5 : FVec F S128000x1024 .f32 := broadcastInDim S128000x1024 ![] bcast_S_S128000x1024 main_cst_0
  let main_v6 : IVec S128000x1024 1 := cmpf .olt main_v4 main_v5
  let main_c_1 : IVec S_ 1 := constantI S_ 1 1#1
  let main_v7 : IVec S_ 1 := (fun x v => Host.reduce IntOp.andi x v reducesTo_S128000x1024_S_d0_1 h_S_) main_v6 main_c_1
  let main_v8 : IVec S_ 1 := andi main_v3 main_v7
  main_v8
-- ==== Kernel.lean ====
abbrev S32x1024 : Shape := ⟨2, ![32, 1024]⟩
abbrev S128000x1024 : Shape := ⟨2, ![128000, 1024]⟩
abbrev S32x1 : Shape := ⟨2, ![32, 1]⟩
abbrev S2560x1024 : Shape := ⟨2, ![2560, 1024]⟩
abbrev S32x2560 : Shape := ⟨2, ![32, 2560]⟩
abbrev S32 : Shape := ⟨1, ![32]⟩
abbrev S32x128000 : Shape := ⟨2, ![32, 128000]⟩

abbrev nBuf : Space → Nat
  | .hbm => 4
  | .vmem => 12
  | .smem => 0
  | _ => 0

abbrev bufTy : (tb : Table) → Fin (tcTables nBuf tb) → BufTy
  | .hbm, ⟨0, _⟩ => ⟨S32x1024, .f32⟩
  | .hbm, ⟨1, _⟩ => ⟨S128000x1024, .f32⟩
  | .hbm, ⟨2, _⟩ => ⟨S32x1, .f32⟩
  | .hbm, ⟨3, _⟩ => ⟨S32x128000, .f32⟩
  | .local _ .vmem, ⟨0, _⟩ => ⟨S32x1024, .f32⟩
  | .local _ .vmem, ⟨1, _⟩ => ⟨S2560x1024, .f32⟩
  | .local _ .vmem, ⟨2, _⟩ => ⟨S2560x1024, .f32⟩
  | .local _ .vmem, ⟨3, _⟩ => ⟨S32x1, .f32⟩
  | .local _ .vmem, ⟨4, _⟩ => ⟨S32x1, .f32⟩
  | .local _ .vmem, ⟨5, _⟩ => ⟨S32x1, .f32⟩
  | .local _ .vmem, ⟨6, _⟩ => ⟨S32x1024, .f32⟩
  | .local _ .vmem, ⟨7, _⟩ => ⟨S2560x1024, .f32⟩
  | .local _ .vmem, ⟨8, _⟩ => ⟨S2560x1024, .f32⟩
  | .local _ .vmem, ⟨9, _⟩ => ⟨S32x1, .f32⟩
  | .local _ .vmem, ⟨10, _⟩ => ⟨S32x2560, .f32⟩
  | .local _ .vmem, ⟨11, _⟩ => ⟨S32x2560, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v29 : BitVec 1 := Scalar.cmpi .eq arg0 c49_i32
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2560x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x2560 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x1024_S32x1024_0_0 : ∀ a, (![0, 0] : Fin 2 → Nat) a + S32x1024.size a ≤ S32x1024.size a
  h_S32x1024 : 0 < S32x1024.numel
  bitsLt_bf16_f32 : FTy.bits .bf16 < FTy.bits .f32
  inb_S2560x1024_S2560x1024_0_0 : ∀ a, (![0, 0] : Fin 2 → Nat) a + S2560x1024.size a ≤ S2560x1024.size a
  h_S2560x1024 : 0 < S2560x1024.numel
  reduces_S32x2560_S32 : S32x2560.Reduces [1] S32
  shapeCasts_S32_S32x1 : S32.ShapeCasts S32x1
  broadcasts_S32x1_S32x2560 : S32x1.Broadcasts S32x2560
  inb_S32x2560_S32x2560_0_0 : ∀ a, (![0, 0] : Fin 2 → Nat) a + S32x2560.size a ≤ S32x2560.size a
  h_S32x2560 : 0 < S32x2560.numel
  dot_S32x1024_S2560x1024_S32x2560_1_1_0_0_n_n_wf : DotDims.WF S32x1024 S2560x1024 S32x2560 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x1024.size a
  hwx0_0 : ∀ i : grid0.Coords, EltTy.bits .f32 = 32 ∨ (Rect.block (s := S32x1024) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x1024.size a ≤ S128000x1024.size a
  hwx0_1 : ∀ i : grid0.Coords, EltTy.bits .f32 = 32 ∨ (Rect.block (s := S128000x1024) S2560x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x1024.size a ≤ S32x1024.size a
  hwx1_0 : ∀ i : grid1.Coords, EltTy.bits .f32 = 32 ∨ (Rect.block (s := S32x1024) S32x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x1024.size a ≤ S128000x1024.size a
  hwx1_1 : ∀ i : grid1.Coords, EltTy.bits .f32 = 32 ∨ (Rect.block (s := S128000x1024) S2560x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S32x1.size a
  hwx1_2 : ∀ i : grid1.Coords, EltTy.bits .f32 = 32 ∨ (Rect.block (s := S32x1) S32x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x2560.size a ≤ S32x128000.size a
  hwx1_3 : ∀ i : grid1.Coords, EltTy.bits .f32 = 32 ∨ (Rect.block (s := S32x128000) S32x2560.size (cc1_transform_3 i) (hinb1_3 i)).WholeWords (EltTy.packing .f32)

variable [Facts₀]

def dot_S32x1024_S2560x1024_S32x2560_1_1_0_0_n_n : DotDims S32x1024 S2560x1024 S32x2560 where
  lhsContracting := [1]
  rhsContracting := [1]
  lhsNonContracting := [0]
  rhsNonContracting := [0]
  lhsBatch := []
  rhsBatch := []
  wf := dot_S32x1024_S2560x1024_S32x2560_1_1_0_0_n_n_wf

abbrev win0_0 : Pipeline.Window sig grid0 :=
  Pipeline.Window.ofSpec (Memref.whole main_arg0) S32x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2560x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S32x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2560x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S32x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S32x2560.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x1024 : Shape := ⟨2, ![32, 1024]⟩
abbrev S128000x1024 : Shape := ⟨2, ![128000, 1024]⟩
abbrev S32x128000 : Shape := ⟨2, ![32, 128000]⟩
abbrev S_ : Shape := ⟨0, ![]⟩
abbrev S32 : Shape := ⟨1, ![32]⟩
abbrev S32x1 : Shape := ⟨2, ![32, 1]⟩

abbrev nBuf : Space → Nat
  | .hbm => 20
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S128000x1024, .f32⟩
  | .hbm, ⟨2, _⟩ => ⟨S32x128000, .f32⟩
  | .hbm, ⟨3, _⟩ => ⟨S_, .f32⟩
  | .hbm, ⟨4, _⟩ => ⟨S32x128000, .f32⟩
  | .hbm, ⟨5, _⟩ => ⟨S32x128000, .f32⟩
  | .hbm, ⟨6, _⟩ => ⟨S_, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32x1, .f32⟩
  | .hbm, ⟨12, _⟩ => ⟨S32x128000, .f32⟩
  | .hbm, ⟨13, _⟩ => ⟨S32x128000, .f32⟩
  | .hbm, ⟨14, _⟩ => ⟨S32x128000, .f32⟩
  | .hbm, ⟨15, _⟩ => ⟨S_, .f32⟩
  | .hbm, ⟨16, _⟩ => ⟨S32, .f32⟩
  | .hbm, ⟨17, _⟩ => ⟨S32x1, .f32⟩
  | .hbm, ⟨18, _⟩ => ⟨S32x128000, .f32⟩
  | .hbm, ⟨19, _⟩ => ⟨S32x128000, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S32x128000 : S_.BroadcastsInDim S32x128000 (![] : Fin 0 → Fin S32x128000.rank)
  reducesTo_S32x128000_S32_d1 : S32x128000.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x128000_0_1 : S32x1.BroadcastsInDim S32x128000 (![0, 1] : Fin 2 → Fin S32x128000.rank)
  dot_S32x1024_S128000x1024_S32x128000_1_1_0_0_n_n_wf : DotDims.WF S32x1024 S128000x1024 S32x128000 [1] [1] [0] [0] [] []

variable [Facts₀]

def dot_S32x1024_S128000x1024_S32x128000_1_1_0_0_n_n : DotDims S32x1024 S128000x1024 S32x128000 where
  lhsContracting := [1]
  rhsContracting := [1]
  lhsNonContracting := [0]
  rhsNonContracting := [0]
  lhsBatch := []
  rhsBatch := []
  wf := dot_S32x1024_S128000x1024_S32x128000_1_1_0_0_n_n_wf

class Facts : Prop extends Facts₀ where

variable [Facts]
-- ==== Proof.K.Shared.lean ====
/-
  What the two regions' proofs share. The first region sweeps the 50 tiles of the atom matrix keeping, per row, a
  running maximum and a running sum in two scratch columns; the second sweeps them again and writes the normalised
  exponentials. Here: each window's block at a grid point, read off the array the region is entered with; that an
  input window's staging buffer holds that block at every point; the two branch conditions of the first kernel
  (first point, last point) in closed form over the grid; where its output window is idle and where it is written
  back; and the region's resting invariant with the two scratch columns named.
-/
import proofs.«122219_j74990128988321_1_alg».proof.Proof.Gen.Kernel.Launch
import proofs.«122219_j74990128988321_1_alg».proof.Proof.Gen.Kernel.Skeleton
import proofs.«122219_j74990128988321_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the TensorCore's buffer contents when a region is entered
variable (V : (c : Dev nD) → (b : Ref sig .tc) → Buf (Elt F) ((c : Thread nD τ).loc b))

/-- Window `w` of the first region at point `t`: the block of its array, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of the second region at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block (all 32 rows) sits in its staging buffer at every point of the first sweep, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Tile `t` of the atom matrix sits in its staging buffer at point `t` of the first sweep. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same three facts for the second sweep's input windows: the row block, the tile, and the log-sum-exp column. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The first kernel's two branches, over the grid -/

/-- "This is the first tile": the kernel's comparison of the grid coordinate with zero. -/
abbrev condFirst (i : grid0.Coords) : Prop := (Scalar.cmpi .ne (Scalar.extui (Scalar.cmpi .eq (BitVec.ofNat 32 (i 0).val) 0#32)) 0#32) = 1#1
theorem condFirst_iff : ∀ t : Fin cfg0.N, condFirst (grid0.coords t) ↔ t.val = 0 :=
  (by decide +kernel : ∀ t : Fin grid0.N, condFirst (grid0.coords t) ↔ t.val = 0)

/-- "This is the last tile": the comparison with 49. -/
abbrev condLast (i : grid0.Coords) : Prop := k0_cond2 i = 1#1
theorem condLast_iff : ∀ t : Fin cfg0.N, condLast (grid0.coords t) ↔ t.val = 49 :=
  (by decide +kernel : ∀ t : Fin grid0.N, condLast (grid0.coords t) ↔ t.val = 49)

/-! ## Where the first region's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last tile the kernel stores nothing into the output column, and the column is not written back. -/
theorem idleAt0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
/-- At the last tile it stores the column. -/
theorem liveAt0_2 : ∀ t : Fin cfg0.N, condLast (grid0.coords t) → cfg0.idle 2 (grid0.coords t) = false := by decide +kernel

/-! ## The memrefs the first kernel is called with -/

abbrev ms0_0 (t : Fin cfg0.N) : Memref sig .tc .vmem S32x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x1 .f32 := win0_2.stage (cfg0.slots t 2)
abbrev hs0_2 (t : Fin cfg0.N) : (ms0_2 t).IsWhole := hstage0_2 ((cfg0.slots t 2).cast nbuf0_2)
/-- The running maximum's column and the running sum's column. -/
abbrev scMax : Memref sig .tc .vmem S32x1 .f32 := Memref.whole cc0_scratch0
abbrev scSum : Memref sig .tc .vmem S32x1 .f32 := Memref.whole cc0_scratch1
abbrev VMax : View sig .tc .vmem S32x1 .f32 := scMax.view
abbrev VSum : View sig .tc .vmem S32x1 .f32 := scSum.view
abbrev VOut0 : View sig .tc .vmem S32x1 .f32 := (Memref.whole cc0_stg2_0 : Memref sig .tc .vmem S32x1 .f32).view

/-- The scoped buffers the first region neither stages nor uses: the second region's six staging buffers, each whole at
    some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The first region's resting invariant, with the two scratch columns as memrefs owned at some contents. -/
theorem PhiA0_eq (c : Dev nD) :
    (Pipeline.ΦA spec0 c : sProp 𝕄)
      = iprop(iprop((∃ d, owns (c : Thread nD τ) scMax fullShare d) ∗ (∃ d, owns (c : Thread nD τ) scSum fullShare d) ∗ others0 c) ∗ (∃ r, prngReg c r)) := by
  unfold Pipeline.ΦA others0; rw [scopedRest0_eq]; simp only [scMax, scSum, owns_whole]; try rfl

end Cert.Kernel.Hand

end
-- ==== Proof.K.ReduceRuns.lean ====
/-
  The first kernel's body, run once per shape of its control flow. At the first tile it resets the two scratch columns
  (maximum to minus infinity, sum to zero) before the update; at a middle tile it only updates them; at the last tile it
  updates them and then stores maximum + log sum into the output column. Each run says: on whole memrefs, the row block
  and the tile at their contents, the body runs to the end, the inputs are as they were, and each buffer it stored into
  holds its stores, listed last first. The lists are found by running the body.
-/
import proofs.«122219_j74990128988321_1_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First tile: both scratch columns at anything on entry (they are reset first); the output column is not touched. -/
noncomputable def runFirst (c : Dev nD) (i : grid0.Coords) (arg1 : Memref sig .tc .vmem S32x1024 .f32) (harg1 : arg1.IsWhole) (arg2 : Memref sig .tc .vmem S2560x1024 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x1 .f32) (harg5 : arg5.IsWhole) (hc0 : condFirst i) (hc1 : ¬condLast i)
    (x0 : Vec F S32x1024 .f32) (x1 : Vec F S2560x1024 .f32) :
    Σ' (L4 : List (View.Piece (Elt F) S32x1 .f32)), { L5 : List (View.Piece (Elt F) S32x1 .f32) //
      ∀ (xi3 : Vec F S32x1 .f32) (E : Set ℕ) (K : PUnit → sProp 𝕄),
        iprop(owns (c : Thread nD τ) arg1 fullShare x0 ∗ owns (c : Thread nD τ) arg2 fullShare x1 ∗ owns (c : Thread nD τ) arg3 fullShare xi3 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__reduce_kernel i arg1 harg1 arg2 harg2 arg3 harg3 arg4 harg4 arg5 harg5) K } := by
  refine ⟨?_, ?_, fun xi3 E K => ?run⟩
  case run =>
    simp only [cc0__reduce_kernel_eq_skeleton]; unfold cc0__reduce_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

set_option maxHeartbeats 1000000 in
/-- A middle tile: the scratch columns at what the tile before left; the output column is not touched. -/
noncomputable def runMid (c : Dev nD) (i : grid0.Coords) (arg1 : Memref sig .tc .vmem S32x1024 .f32) (harg1 : arg1.IsWhole) (arg2 : Memref sig .tc .vmem S2560x1024 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x1 .f32) (harg5 : arg5.IsWhole) (hc0 : ¬condFirst i) (hc1 : ¬condLast i)
    (x0 : Vec F S32x1024 .f32) (x1 : Vec F S2560x1024 .f32) (xm xs : Vec F S32x1 .f32) :
    Σ' (L4 : List (View.Piece (Elt F) S32x1 .f32)), { L5 : List (View.Piece (Elt F) S32x1 .f32) //
      ∀ (xi3 : Vec F S32x1 .f32) (E : Set ℕ) (K : PUnit → sProp 𝕄),
        iprop(owns (c : Thread nD τ) arg1 fullShare x0 ∗ owns (c : Thread nD τ) arg2 fullShare x1 ∗ owns (c : Thread nD τ) arg3 fullShare xi3 ∗ owns (c : Thread nD τ) arg4 fullShare xm ∗ owns (c : Thread nD τ) arg5 fullShare xs
            ∗ (iprop(owns (c : Thread nD τ) arg1 fullShare x0 ∗ owns (c : Thread nD τ) arg2 fullShare x1 ∗ owns (c : Thread nD τ) arg3 fullShare xi3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__reduce_kernel i arg1 harg1 arg2 harg2 arg3 harg3 arg4 harg4 arg5 harg5) K } := by
  refine ⟨?_, ?_, fun xi3 E K => ?run⟩
  case run =>
    simp only [cc0__reduce_kernel_eq_skeleton]; unfold cc0__reduce_kernel_skel
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := harg1.eq_unread hf1; obtain rfl := harg2.eq_unread hf2; obtain rfl := harg3.eq_unread hf3
    obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

set_option maxHeartbeats 1000000 in
/-- The last tile: the scratch columns at what the tile before left, the output column at anything; it ends stored. -/
noncomputable def runLast (c : Dev nD) (i : grid0.Coords) (arg1 : Memref sig .tc .vmem S32x1024 .f32) (harg1 : arg1.IsWhole) (arg2 : Memref sig .tc .vmem S2560x1024 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x1 .f32) (harg5 : arg5.IsWhole) (hc0 : ¬condFirst i) (hc1 : condLast i)
    (x0 : Vec F S32x1024 .f32) (x1 : Vec F S2560x1024 .f32) (xm xs : Vec F S32x1 .f32) :
    Σ' (L3 : List (View.Piece (Elt F) S32x1 .f32)) (L4 : List (View.Piece (Elt F) S32x1 .f32)), { L5 : List (View.Piece (Elt F) S32x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xm ∗ owns (c : Thread nD τ) arg5 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__reduce_kernel i arg1 harg1 arg2 harg2 arg3 harg3 arg4 harg4 arg5 harg5) K } := by
  refine ⟨?_, ?_, ?_, fun E K => ?run⟩
  case run =>
    simp only [cc0__reduce_kernel_eq_skeleton]; unfold cc0__reduce_kernel_skel
    unfold owns
    iintro ⟨⟨%f1, %hf1, H1⟩, ⟨%f2, %hf2, H2⟩, ⟨%d3, %f3, -, H3⟩, ⟨%f4, %hf4, H4⟩, ⟨%f5, %hf5, H5⟩, Hk⟩
    obtain rfl := harg1.eq_unread hf1; obtain rfl := harg2.eq_unread hf2
    obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    iexists _; iexact H5

end Cert.Kernel.Hand

end
-- ==== Proof.K.Reduce.lean ====
/-
  The first region, point by point. After tile `n` the two scratch columns hold the running maximum and the running sum
  of the rows' scores against tiles 0..n; `scrAt` names that pair by recursion on the tile, each step being what the
  body's stores leave (the first tile's run from anything, a later tile's run from the pair before). The output column is
  stored at the last tile only. With the pair named, the region's invariant before tile `n + 1` is: the two columns at
  `scrAt n`, the other scoped buffers at anything, the generator register at some state; and the body, at every point,
  takes the invariant before the point to the invariant after it.
-/
import proofs.«122219_j74990128988321_1_alg».proof.Proof.K.ReduceRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave -/

section Cases
variable (c : Dev nD) (i : grid0.Coords) (arg1 : Memref sig .tc .vmem S32x1024 .f32) (harg1 : arg1.IsWhole) (arg2 : Memref sig .tc .vmem S2560x1024 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x1 .f32) (harg5 : arg5.IsWhole)

theorem coverFirst_max (hc0 : condFirst i) (hc1 : ¬condLast i) (x0 : Vec F S32x1024 .f32) (x1 : Vec F S2560x1024 .f32) (y : S32x1.Idx) :
    ∃ pc ∈ (runFirst c i arg1 harg1 arg2 harg2 arg3 harg3 arg4 harg4 arg5 harg5 hc0 hc1 x0 x1).1, y ∈ pc.1.set :=
  View.cover_of_tiledL (runFirst c i arg1 harg1 arg2 harg2 arg3 harg3 arg4 harg4 arg5 harg5 hc0 hc1 x0 x1).1 S32x1.size (by sl_kernel_rfl) y
theorem coverFirst_sum (hc0 : condFirst i) (hc1 : ¬condLast i) (x0 : Vec F S32x1024 .f32) (x1 : Vec F S2560x1024 .f32) (y : S32x1.Idx) :
    ∃ pc ∈ (runFirst c i arg1 harg1 arg2 harg2 arg3 harg3 arg4 harg4 arg5 harg5 hc0 hc1 x0 x1).2.1, y ∈ pc.1.set :=
  View.cover_of_tiledL (runFirst c i arg1 harg1 arg2 harg2 arg3 harg3 arg4 harg4 arg5 harg5 hc0 hc1 x0 x1).2.1 S32x1.size (by sl_kernel_rfl) y
/-- The pair after the first tile. -/
def pairFirst (hc0 : condFirst i) (hc1 : ¬condLast i) (x0 : Vec F S32x1024 .f32) (x1 : Vec F S2560x1024 .f32) : Vec F S32x1 .f32 × Vec F S32x1 .f32 :=
  (VMax.read (Elt F) (VMax.writes (Elt F) VMax.junk (runFirst c i arg1 harg1 arg2 harg2 arg3 harg3 arg4 harg4 arg5 harg5 hc0 hc1 x0 x1).1),
   VSum.read (Elt F) (VSum.writes (Elt F) VSum.junk (runFirst c i arg1 harg1 arg2 harg2 arg3 harg3 arg4 harg4 arg5 harg5 hc0 hc1 x0 x1).2.1))

theorem coverMid_max (hc0 : ¬condFirst i) (hc1 : ¬condLast i) (x0 : Vec F S32x1024 .f32) (x1 : Vec F S2560x1024 .f32) (xm xs : Vec F S32x1 .f32) (y : S32x1.Idx) :
    ∃ pc ∈ (runMid c i arg1 harg1 arg2 harg2 arg3 harg3 arg4 harg4 arg5 harg5 hc0 hc1 x0 x1 xm xs).1, y ∈ pc.1.set :=
  View.cover_of_tiledL (runMid c i arg1 harg1 arg2 harg2 arg3 harg3 arg4 harg4 arg5 harg5 hc0 hc1 x0 x1 xm xs).1 S32x1.size (by sl_kernel_rfl) y
theorem coverMid_sum (hc0 : ¬condFirst i) (hc1 : ¬condLast i) (x0 : Vec F S32x1024 .f32) (x1 : Vec F S2560x1024 .f32) (xm xs : Vec F S32x1 .f32) (y : S32x1.Idx) :
    ∃ pc ∈ (runMid c i arg1 harg1 arg2 harg2 arg3 harg3 arg4 harg4 arg5 harg5 hc0 hc1 x0 x1 xm xs).2.1, y ∈ pc.1.set :=
  View.cover_of_tiledL (runMid c i arg1 harg1 arg2 harg2 arg3 harg3 arg4 harg4 arg5 harg5 hc0 hc1 x0 x1 xm xs).2.1 S32x1.size (by sl_kernel_rfl) y
/-- The pair after a middle tile, from the pair before it. -/
def pairMid (hc0 : ¬condFirst i) (hc1 : ¬condLast i) (x0 : Vec F S32x1024 .f32) (x1 : Vec F S2560x1024 .f32) (xm xs : Vec F S32x1 .f32) : Vec F S32x1 .f32 × Vec F S32x1 .f32 :=
  (VMax.read (Elt F) (VMax.writes (Elt F) VMax.junk (runMid c i arg1 harg1 arg2 harg2 arg3 harg3 arg4 harg4 arg5 harg5 hc0 hc1 x0 x1 xm xs).1),
   VSum.read (Elt F) (VSum.writes (Elt F) VSum.junk (runMid c i arg1 harg1 arg2 harg2 arg3 harg3 arg4 harg4 arg5 harg5 hc0 hc1 x0 x1 xm xs).2.1))

theorem coverLast_out (hc0 : ¬condFirst i) (hc1 : condLast i) (x0 : Vec F S32x1024 .f32) (x1 : Vec F S2560x1024 .f32) (xm xs : Vec F S32x1 .f32) (y : S32x1.Idx) :
    ∃ pc ∈ (runLast c i arg1 harg1 arg2 harg2 arg3 harg3 arg4 harg4 arg5 harg5 hc0 hc1 x0 x1 xm xs).1, y ∈ pc.1.set :=
  View.cover_of_tiledL (runLast c i arg1 harg1 arg2 harg2 arg3 harg3 arg4 harg4 arg5 harg5 hc0 hc1 x0 x1 xm xs).1 S32x1.size (by sl_kernel_rfl) y
theorem coverLast_max (hc0 : ¬condFirst i) (hc1 : condLast i) (x0 : Vec F S32x1024 .f32) (x1 : Vec F S2560x1024 .f32) (xm xs : Vec F S32x1 .f32) (y : S32x1.Idx) :
    ∃ pc ∈ (runLast c i arg1 harg1 arg2 harg2 arg3 harg3 arg4 harg4 arg5 harg5 hc0 hc1 x0 x1 xm xs).2.1, y ∈ pc.1.set :=
  View.cover_of_tiledL (runLast c i arg1 harg1 arg2 harg2 arg3 harg3 arg4 harg4 arg5 harg5 hc0 hc1 x0 x1 xm xs).2.1 S32x1.size (by sl_kernel_rfl) y
theorem coverLast_sum (hc0 : ¬condFirst i) (hc1 : condLast i) (x0 : Vec F S32x1024 .f32) (x1 : Vec F S2560x1024 .f32) (xm xs : Vec F S32x1 .f32) (y : S32x1.Idx) :
    ∃ pc ∈ (runLast c i arg1 harg1 arg2 harg2 arg3 harg3 arg4 harg4 arg5 harg5 hc0 hc1 x0 x1 xm xs).2.2.1, y ∈ pc.1.set :=
  View.cover_of_tiledL (runLast c i arg1 harg1 arg2 harg2 arg3 harg3 arg4 harg4 arg5 harg5 hc0 hc1 x0 x1 xm xs).2.2.1 S32x1.size (by sl_kernel_rfl) y
/-- The pair after the last tile, and the output column it stores. -/
def pairLast (hc0 : ¬condFirst i) (hc1 : condLast i) (x0 : Vec F S32x1024 .f32) (x1 : Vec F S2560x1024 .f32) (xm xs : Vec F S32x1 .f32) : Vec F S32x1 .f32 × Vec F S32x1 .f32 :=
  (VMax.read (Elt F) (VMax.writes (Elt F) VMax.junk (runLast c i arg1 harg1 arg2 harg2 arg3 harg3 arg4 harg4 arg5 harg5 hc0 hc1 x0 x1 xm xs).2.1),
   VSum.read (Elt F) (VSum.writes (Elt F) VSum.junk (runLast c i arg1 harg1 arg2 harg2 arg3 harg3 arg4 harg4 arg5 harg5 hc0 hc1 x0 x1 xm xs).2.2.1))
def outLast (hc0 : ¬condFirst i) (hc1 : condLast i) (x0 : Vec F S32x1024 .f32) (x1 : Vec F S2560x1024 .f32) (xm xs : Vec F S32x1 .f32) : Vec F S32x1 .f32 :=
  VOut0.read (Elt F) (VOut0.writes (Elt F) VOut0.junk (runLast c i arg1 harg1 arg2 harg2 arg3 harg3 arg4 harg4 arg5 harg5 hc0 hc1 x0 x1 xm xs).1)

end Cases

/-! ## The pair after each tile -/

section Region
variable (V : (c : Dev nD) → (b : Ref sig .tc) → Buf (Elt F) ((c : Thread nD τ).loc b))

theorem first_of_zero (t : Fin cfg0.N) (h : t.val = 0) : condFirst (grid0.coords t) := (condFirst_iff t).mpr h
theorem not_first_of_pos (t : Fin cfg0.N) (h : t.val ≠ 0) : ¬condFirst (grid0.coords t) := fun hc => h ((condFirst_iff t).mp hc)
theorem last_of_eq (t : Fin cfg0.N) (h : t.val = 49) : condLast (grid0.coords t) := (condLast_iff t).mpr h
theorem not_last_of_ne (t : Fin cfg0.N) (h : t.val ≠ 49) : ¬condLast (grid0.coords t) := fun hc => h ((condLast_iff t).mp hc)

/-- THE RECURSION: the two scratch columns after tile `n`. -/
def scrAt (c : Dev nD) : (n : ℕ) → n < cfg0.N → Vec F S32x1 .f32 × Vec F S32x1 .f32
  | 0, hn => pairFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scMax (Memref.isWhole_whole _) scSum (Memref.isWhole_whole _) (first_of_zero ⟨0, hn⟩ rfl) (not_last_of_ne ⟨0, hn⟩ (show (0 : ℕ) ≠ 49 by decide)) (iblk0 V c 0 ⟨0, hn⟩) (iblk0 V c 1 ⟨0, hn⟩)
  | n + 1, hn =>
    if h1 : n + 1 = 49 then
      pairLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (not_first_of_pos ⟨n + 1, hn⟩ (Nat.succ_ne_zero n)) (last_of_eq ⟨n + 1, hn⟩ h1) (iblk0 V c 0 ⟨n + 1, hn⟩) (iblk0 V c 1 ⟨n + 1, hn⟩) (scrAt c n (Nat.lt_of_succ_lt hn)).1 (scrAt c n (Nat.lt_of_succ_lt hn)).2
    else
      pairMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (not_first_of_pos ⟨n + 1, hn⟩ (Nat.succ_ne_zero n)) (not_last_of_ne ⟨n + 1, hn⟩ h1) (iblk0 V c 0 ⟨n + 1, hn⟩) (iblk0 V c 1 ⟨n + 1, hn⟩) (scrAt c n (Nat.lt_of_succ_lt hn)).1 (scrAt c n (Nat.lt_of_succ_lt hn)).2

/-- The output column's buffer after tile `n`: stored at the last tile; before it the buffer is idle and this value is
    not consulted. -/
def outAt (c : Dev nD) : (n : ℕ) → n < cfg0.N → Vec F S32x1 .f32
  | 0, _ => VOut0.read (Elt F) VOut0.junk
  | n + 1, hn =>
    if h1 : n + 1 = 49 then
      outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (not_first_of_pos ⟨n + 1, hn⟩ (Nat.succ_ne_zero n)) (last_of_eq ⟨n + 1, hn⟩ h1) (iblk0 V c 0 ⟨n + 1, hn⟩) (iblk0 V c 1 ⟨n + 1, hn⟩) (scrAt V c n (Nat.lt_of_succ_lt hn)).1 (scrAt V c n (Nat.lt_of_succ_lt hn)).2
    else VOut0.read (Elt F) VOut0.junk

theorem scrAt_first (c : Dev nD) (t : Fin cfg0.N) (h0 : t.val = 0) :
    scrAt V c t.val t.isLt = pairFirst c (grid0.coords t) (ms0_0 t) (hs0_0 t) (ms0_1 t) (hs0_1 t) (ms0_2 t) (hs0_2 t) scMax (Memref.isWhole_whole _) scSum (Memref.isWhole_whole _) (first_of_zero t h0) (not_last_of_ne t (by omega)) (iblk0 V c 0 t) (iblk0 V c 1 t) := by
  obtain ⟨n, hn⟩ := t
  cases n with
  | zero => rfl
  | succ n => exact absurd h0 (Nat.succ_ne_zero n)

theorem scrAt_mid (c : Dev nD) (t : Fin cfg0.N) (h0 : t.val ≠ 0) (h1 : t.val ≠ 49) :
    scrAt V c t.val t.isLt = pairMid c (grid0.coords t) (ms0_0 t) (hs0_0 t) (ms0_1 t) (hs0_1 t) (ms0_2 t) (hs0_2 t) scMax (Memref.isWhole_whole _) scSum (Memref.isWhole_whole _) (not_first_of_pos t h0) (not_last_of_ne t h1) (iblk0 V c 0 t) (iblk0 V c 1 t)
      (scrAt V c (t.val - 1) (Nat.lt_of_le_of_lt (Nat.sub_le _ _) t.isLt)).1 (scrAt V c (t.val - 1) (Nat.lt_of_le_of_lt (Nat.sub_le _ _) t.isLt)).2 := by
  obtain ⟨n, hn⟩ := t
  cases n with
  | zero => exact absurd rfl h0
  | succ n => exact (dif_neg h1).trans rfl

theorem scrAt_last (c : Dev nD) (t : Fin cfg0.N) (h0 : t.val ≠ 0) (h1 : t.val = 49) :
    scrAt V c t.val t.isLt = pairLast c (grid0.coords t) (ms0_0 t) (hs0_0 t) (ms0_1 t) (hs0_1 t) (ms0_2 t) (hs0_2 t) scMax (Memref.isWhole_whole _) scSum (Memref.isWhole_whole _) (not_first_of_pos t h0) (last_of_eq t h1) (iblk0 V c 0 t) (iblk0 V c 1 t)
      (scrAt V c (t.val - 1) (Nat.lt_of_le_of_lt (Nat.sub_le _ _) t.isLt)).1 (scrAt V c (t.val - 1) (Nat.lt_of_le_of_lt (Nat.sub_le _ _) t.isLt)).2 := by
  obtain ⟨n, hn⟩ := t
  cases n with
  | zero => exact absurd rfl h0
  | succ n => exact (dif_pos h1).trans rfl

theorem outAt_last (c : Dev nD) (t : Fin cfg0.N) (h0 : t.val ≠ 0) (h1 : t.val = 49) :
    outAt V c t.val t.isLt = outLast c (grid0.coords t) (ms0_0 t) (hs0_0 t) (ms0_1 t) (hs0_1 t) (ms0_2 t) (hs0_2 t) scMax (Memref.isWhole_whole _) scSum (Memref.isWhole_whole _) (not_first_of_pos t h0) (last_of_eq t h1) (iblk0 V c 0 t) (iblk0 V c 1 t)
      (scrAt V c (t.val - 1) (Nat.lt_of_le_of_lt (Nat.sub_le _ _) t.isLt)).1 (scrAt V c (t.val - 1) (Nat.lt_of_le_of_lt (Nat.sub_le _ _) t.isLt)).2 := by
  obtain ⟨n, hn⟩ := t
  cases n with
  | zero => exact absurd rfl h0
  | succ n => exact (dif_pos h1).trans rfl

/-! ## The invariant and the proof data -/

/-- Before tile `n`: at the start the region's resting invariant (both columns at anything); afterwards the columns at
    what tile `n - 1` left. -/
def PhiS (c : Dev nD) : (n : ℕ) → n ≤ cfg0.N → sProp 𝕄
  | 0, _ => Pipeline.ΦA spec0 c
  | n + 1, hn => iprop(iprop(owns (c : Thread nD τ) scMax fullShare (scrAt V c n hn).1 ∗ owns (c : Thread nD τ) scSum fullShare (scrAt V c n hn).2 ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scMax fullShare (scrAt V c n hn).1 ∗ owns (c : Thread nD τ) scSum fullShare (scrAt V c n hn).2 ∗ others0 c) ∗ (∃ r, prngReg c r)) := rfl
theorem PhiS_pos (c : Dev nD) (n : ℕ) (h : n ≤ cfg0.N) (hz : n ≠ 0) :
    PhiS V c n h = iprop(iprop(owns (c : Thread nD τ) scMax fullShare (scrAt V c (n - 1) (by omega)).1 ∗ owns (c : Thread nD τ) scSum fullShare (scrAt V c (n - 1) (by omega)).2 ∗ others0 c) ∗ (∃ r, prngReg c r)) := by
  cases n with
  | zero => exact absurd rfl hz
  | succ n => rfl

/-- The first region's proof data: the arrays as the region finds them; after the body each input's buffer at its
    block and the output column's at `outAt`; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by dsimp only [dat0]
theorem PhiS_castSucc (c : Dev nD) (t : Fin cfg0.N) : (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · -- the first tile
    have h1 : t.val ≠ 49 := by omega
    rw [Dat.leavesExact_idle (dat0 V c) 2 t (idleAt0_2 t (not_last_of_ne t h1)) (noFlush0_2 t (not_last_of_ne t h1))]
    rw [scrAt_first V c t h0]
    unfold pairFirst; (try dsimp only)
    rw [PhiS_castSucc V c t, PhiS_zero V c _ _ h0, PhiA0_eq]
    iintro ⟨⟨⟨HM, HS, HO⟩, Hg⟩, Ho, ⟨%d0, H0⟩, ⟨%d1, H1⟩, ⟨%d2, H2⟩⟩
    iapply ((runFirst c (grid0.coords t) _ _ _ _ _ _ _ _ _ _ (first_of_zero t h0) (not_last_of_ne t h1) (iblk0 V c 0 t) (iblk0 V c 1 t)).2.2 _ Set.univ _)
    isplitl [H0]; · iexact H0
    isplitl [H1]; · iexact H1
    isplitl [H2]; · iexact H2
    isplitl [HM]; · iexact HM
    isplitl [HS]; · iexact HS
    iintro ⟨H0, H1, H2, ⟨%e4, HM⟩, ⟨%e5, HS⟩⟩
    isplitl [HM HS HO Hg]
    · isplitl [HM HS HO]
      · isplitl [HM]
        · unfold owns; iexists _; isplitr
          swap; · iexact HM
          ipureintro; exact View.read_writes_of_cover _ _ _ _ _ (coverFirst_max c _ _ _ _ _ _ _ _ _ _ _ _ _ _ _)
        isplitl [HS]
        · unfold owns; iexists _; isplitr
          swap; · iexact HS
          ipureintro; exact View.read_writes_of_cover _ _ _ _ _ (coverFirst_sum c _ _ _ _ _ _ _ _ _ _ _ _ _ _ _)
        iexact HO
      iexact Hg
    isplitl [Ho]; · iexact Ho
    isplitl [H0]; · iexact H0
    isplitl [H1]; · iexact H1
    iexists _; iexact H2
  · by_cases h1 : t.val = 49
    · -- the last tile
      rw [show (dat0 V c).leavesExact 2 t = owns (c : Thread nD τ) (ms0_2 t) fullShare ((dat0 V c).after 2 t) from by
        unfold Dat.leavesExact; rw [liveAt0_2 t (last_of_eq t h1)], after0_2]
      rw [scrAt_last V c t h0 h1, outAt_last V c t h0 h1]
      unfold pairLast outLast; (try dsimp only)
      rw [PhiS_castSucc V c t, PhiS_pos V c _ _ h0]
      iintro ⟨⟨⟨HM, HS, HO⟩, Hg⟩, Ho, ⟨%d0, H0⟩, ⟨%d1, H1⟩, ⟨%d2, H2⟩⟩
      iapply ((runLast c (grid0.coords t) _ _ _ _ _ _ _ _ _ _ (not_first_of_pos t h0) (last_of_eq t h1) (iblk0 V c 0 t) (iblk0 V c 1 t) _ _).2.2.2 Set.univ _)
      isplitl [H0]; · iexact H0
      isplitl [H1]; · iexact H1
      isplitl [H2]; · iexists _; iexact H2
      isplitl [HM]; · iexact HM
      isplitl [HS]; · iexact HS
      iintro ⟨H0, H1, ⟨%e3, H2⟩, ⟨%e4, HM⟩, ⟨%e5, HS⟩⟩
      isplitl [HM HS HO Hg]
      · isplitl [HM HS HO]
        · isplitl [HM]
          · unfold owns; iexists _; isplitr
            swap; · iexact HM
            ipureintro; exact View.read_writes_of_cover _ _ _ _ _ (coverLast_max c _ _ _ _ _ _ _ _ _ _ _ _ _ _ _ _ _)
          isplitl [HS]
          · unfold owns; iexists _; isplitr
            swap; · iexact HS
            ipureintro; exact View.read_writes_of_cover _ _ _ _ _ (coverLast_sum c _ _ _ _ _ _ _ _ _ _ _ _ _ _ _ _ _)
          iexact HO
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast_out c _ _ _ _ _ _ _ _ _ _ _ _ _ _ _ _ _)
    · -- a middle tile
      rw [Dat.leavesExact_idle (dat0 V c) 2 t (idleAt0_2 t (not_last_of_ne t h1)) (noFlush0_2 t (not_last_of_ne t h1))]
      rw [scrAt_mid V c t h0 h1]
      unfold pairMid; (try dsimp only)
      rw [PhiS_castSucc V c t, PhiS_pos V c _ _ h0]
      iintro ⟨⟨⟨HM, HS, HO⟩, Hg⟩, Ho, ⟨%d0, H0⟩, ⟨%d1, H1⟩, ⟨%d2, H2⟩⟩
      iapply ((runMid c (grid0.coords t) _ _ _ _ _ _ _ _ _ _ (not_first_of_pos t h0) (not_last_of_ne t h1) (iblk0 V c 0 t) (iblk0 V c 1 t) _ _).2.2 _ Set.univ _)
      isplitl [H0]; · iexact H0
      isplitl [H1]; · iexact H1
      isplitl [H2]; · iexact H2
      isplitl [HM]; · iexact HM
      isplitl [HS]; · iexact HS
      iintro ⟨H0, H1, H2, ⟨%e4, HM⟩, ⟨%e5, HS⟩⟩
      isplitl [HM HS HO Hg]
      · isplitl [HM HS HO]
        · isplitl [HM]
          · unfold owns; iexists _; isplitr
            swap; · iexact HM
            ipureintro; exact View.read_writes_of_cover _ _ _ _ _ (coverMid_max c _ _ _ _ _ _ _ _ _ _ _ _ _ _ _ _ _)
          isplitl [HS]
          · unfold owns; iexists _; isplitr
            swap; · iexact HS
            ipureintro; exact View.read_writes_of_cover _ _ _ _ _ (coverMid_sum c _ _ _ _ _ _ _ _ _ _ _ _ _ _ _ _ _)
          iexact HO
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last tile the invariant gives the resting invariant back: the columns' named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HM, HS, HO⟩, Hg⟩
  isplitl [HM HS HO]
  · isplitl [HM]; · iexists _; iexact HM
    isplitl [HS]; · iexists _; iexact HS
    iexact HO
  iexact Hg

end Region

end Cert.Kernel.Hand

end
-- ==== Proof.K.NormRun.lean ====
/-
  The second kernel's body: it loads the row block, the tile and the log-sum-exp column, and stores into the output block
  the exponentials of (scores of the rows against the tile's atoms, minus the column). One store covers the block.
-/
import proofs.«122219_j74990128988321_1_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rRows : Rect S32x1024 := Rect.unit (s := S32x1024) ![0, 0] S32x1024.size inb_S32x1024_S32x1024_0_0
abbrev rTile : Rect S2560x1024 := Rect.unit (s := S2560x1024) ![0, 0] S2560x1024.size inb_S2560x1024_S2560x1024_0_0
abbrev rCol : Rect S32x1 := Rect.unit (s := S32x1) ![0, 0] S32x1.size inb_S32x1_S32x1_0_0
abbrev rOut : Rect S32x2560 := Rect.unit (s := S32x2560) ![0, 0] S32x2560.size inb_S32x2560_S32x2560_0_0

/-- What the body leaves in the output block's buffer, from the three input blocks. -/
def out1_3 (x0 : Vec F S32x1024 .f32) (x1 : Vec F S2560x1024 .f32) (x2 : Vec F S32x1 .f32) : Vec F S32x2560 .f32 :=
  View.canon [⟨rOut, k1_pay1 (View.ld x0 rRows) (View.ld x1 rTile) (View.ld x2 rCol)⟩]

/-- The one store covers the block. -/
theorem cover1_3 (p0 : Vec F S32x2560 .f32) (y : S32x2560.Idx) :
    ∃ pc ∈ ([⟨rOut, p0⟩] : List (View.Piece (Elt F) S32x2560 .f32)), y ∈ pc.1.set :=
  View.cover_of_tiled [⟨rOut, p0⟩] S32x2560.size (by rfl) y

set_option maxHeartbeats 1000000 in
theorem sound_kernel1 (c : Dev nD) (E : Set ℕ) (i : grid1.Coords) (arg1 : Memref sig .tc .vmem S32x1024 .f32) (harg1 : arg1.IsWhole) (arg2 : Memref sig .tc .vmem S2560x1024 .f32) (harg2 : arg2.IsWhole) (arg3 : Memref sig .tc .vmem S32x1 .f32) (harg3 : arg3.IsWhole) (arg4 : Memref sig .tc .vmem S32x2560 .f32) (harg4 : arg4.IsWhole)
    (x0 : Vec F S32x1024 .f32) (x1 : Vec F S2560x1024 .f32) (x2 : Vec F S32x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__normalize_kernel i arg1 harg1 arg2 harg2 arg3 harg3 arg4 harg4) K := by
  simp only [cc1__normalize_kernel_eq_skeleton]; unfold cc1__normalize_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 _)

end Cert.Kernel.Hand

end
-- ==== Proof.K.Norm.lean ====
/-
  The second region, point by point: at tile `t` the body finds the row block, tile `t` and the log-sum-exp column in
  their staging buffers and leaves in the output block's buffer the normalised exponentials of that tile's scores;
  it keeps nothing between points.
-/
import proofs.«122219_j74990128988321_1_alg».proof.Proof.K.NormRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The second region's proof data: the arrays as the region finds them; after the body each input's buffer at its
    block and the output's at the body's store over those blocks; the resting invariant throughout; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.K.Run.lean ====
/-
  The whole program: two regions in a row. The buffer contents at the three boundaries are a fold from the launch memory:
  at the start the launch contents; after the first region its arrays at what its write-backs leave (the log-sum-exp
  column written once, at the last tile; the two arguments only read); after the second region its arrays likewise (the
  result written tile by tile). Each region is entered from "every unscoped buffer at the boundary's contents, the
  generator register at some state, nothing owed" and left at the same with the next contents. The run ends with every
  unscoped buffer at the last contents; reading that at the arguments gives the frame, and at the result its value.
-/
import proofs.«122219_j74990128988321_1_alg».proof.Proof.K.Reduce
import proofs.«122219_j74990128988321_1_alg».proof.Proof.K.Norm

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the first region. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the second region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- The arguments end as launched: both regions only read them. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (V1 m) c).arrAt_in 0 rfl _).trans (A_eq1 (V1 m) c 0))
    _ = W0 m c (Proc.devRef .tc main_arg0) := (W1_arr m c 0).trans (((dat0 (V0 m) c).arrAt_in 0 rfl _).trans (A_eq0 (V0 m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 1).trans (((dat1 (V1 m) c).arrAt_in 1 rfl _).trans (A_eq1 (V1 m) c 1))
    _ = W0 m c (Proc.devRef .tc main_arg1) := (W1_arr m c 1).trans (((dat0 (V0 m) c).arrAt_in 1 rfl _).trans (A_eq0 (V0 m) c 1))
    _ = m ((c : Thread nD τ).loc main_arg1) := rfl
/-- The result ends at what the second region's write-backs leave. -/
theorem W2_main_v1 (c : Dev nD) : W2 m c (Proc.devRef .tc main_v1) = (dat1 (V1 m) c).arrAt 3 cfg1.N := W2_arr m c 3
/-- The second region finds the arguments as launched and the column at what the first region's write-back left. -/
theorem V1_main_arg0 (c : Dev nD) : V1 m c main_arg0 = m ((c : Thread nD τ).loc main_arg0) :=
  (W1_arr m c 0).trans (((dat0 (V0 m) c).arrAt_in 0 rfl _).trans (A_eq0 (V0 m) c 0))
theorem V1_main_arg1 (c : Dev nD) : V1 m c main_arg1 = m ((c : Thread nD τ).loc main_arg1) :=
  (W1_arr m c 1).trans (((dat0 (V0 m) c).arrAt_in 1 rfl _).trans (A_eq0 (V0 m) c 1))
theorem V1_main_v0 (c : Dev nD) : V1 m c main_v0 = (dat0 (V0 m) c).arrAt 2 cfg0.N := W1_arr m c 2

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h1 : (pdats m 0 c).Φ (Fin.last _) ⊢ (Pipeline.ΦA spec0 c : sProp 𝕄) := hout0 (V0 m) c
    have h2 : (Pipeline.ΦA spec0 c : sProp 𝕄) ⊢ iprop((∃ r, prngReg c r) ∗ (BI.emp : sProp 𝕄) ∗ Pipeline.scopedRest spec0 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) :=
  main_segs adm (pdats m) () 𝒱₀ L lv (reg0 m) (reg1 m) c

set_option backward.isDefEq.respectTransparency.types false in
/-- THE RUN, at any float instance: from any memory with zero counters every weakly fair execution of the program
    terminates, nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W2_main_arg0 m c),
     (h c _ (mem_uc main_arg1 (by decide))).trans (W2_main_arg1 m c)⟩) (run_all m ρ)

/-- THE RESULT: it ends at what the second region's write-backs leave, the arguments as launched. -/
theorem run_result : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c)⟩) (run_all m ρ)

end Cert.Kernel.Hand

end
-- ==== Proof.KI.Shared.lean ====
/-
  What the two regions' proofs share. The first region sweeps the 50 tiles of the atom matrix keeping, per row, a
  running maximum and a running sum in two scratch columns; the second sweeps them again and writes the normalised
  exponentials. Here: each window's block at a grid point, read off the array the region is entered with; that an
  input window's staging buffer holds that block at every point; the two branch conditions of the first kernel
  (first point, last point) in closed form over the grid; where its output window is idle and where it is written
  back; and the region's resting invariant with the two scratch columns named.
-/
import proofs.«122219_j74990128988321_1_alg».proof.Proof.Gen.KernelIdeal.Launch
import proofs.«122219_j74990128988321_1_alg».proof.Proof.Gen.KernelIdeal.Skeleton
import proofs.«122219_j74990128988321_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the TensorCore's buffer contents when a region is entered
variable (V : (c : Dev nD) → (b : Ref sig .tc) → Buf (Elt F) ((c : Thread nD τ).loc b))

/-- Window `w` of the first region at point `t`: the block of its array, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of the second region at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block (all 32 rows) sits in its staging buffer at every point of the first sweep, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Tile `t` of the atom matrix sits in its staging buffer at point `t` of the first sweep. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same three facts for the second sweep's input windows: the row block, the tile, and the log-sum-exp column. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The first kernel's two branches, over the grid -/

/-- "This is the first tile": the kernel's comparison of the grid coordinate with zero. -/
abbrev condFirst (i : grid0.Coords) : Prop := (Scalar.cmpi .ne (Scalar.extui (Scalar.cmpi .eq (BitVec.ofNat 32 (i 0).val) 0#32)) 0#32) = 1#1
theorem condFirst_iff : ∀ t : Fin cfg0.N, condFirst (grid0.coords t) ↔ t.val = 0 :=
  (by decide +kernel : ∀ t : Fin grid0.N, condFirst (grid0.coords t) ↔ t.val = 0)

/-- "This is the last tile": the comparison with 49. -/
abbrev condLast (i : grid0.Coords) : Prop := k0_cond2 i = 1#1
theorem condLast_iff : ∀ t : Fin cfg0.N, condLast (grid0.coords t) ↔ t.val = 49 :=
  (by decide +kernel : ∀ t : Fin grid0.N, condLast (grid0.coords t) ↔ t.val = 49)

/-! ## Where the first region's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last tile the kernel stores nothing into the output column, and the column is not written back. -/
theorem idleAt0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
/-- At the last tile it stores the column. -/
theorem liveAt0_2 : ∀ t : Fin cfg0.N, condLast (grid0.coords t) → cfg0.idle 2 (grid0.coords t) = false := by decide +kernel

/-! ## The memrefs the first kernel is called with -/

abbrev ms0_0 (t : Fin cfg0.N) : Memref sig .tc .vmem S32x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x1 .f32 := win0_2.stage (cfg0.slots t 2)
abbrev hs0_2 (t : Fin cfg0.N) : (ms0_2 t).IsWhole := hstage0_2 ((cfg0.slots t 2).cast nbuf0_2)
/-- The running maximum's column and the running sum's column. -/
abbrev scMax : Memref sig .tc .vmem S32x1 .f32 := Memref.whole cc0_scratch0
abbrev scSum : Memref sig .tc .vmem S32x1 .f32 := Memref.whole cc0_scratch1
abbrev VMax : View sig .tc .vmem S32x1 .f32 := scMax.view
abbrev VSum : View sig .tc .vmem S32x1 .f32 := scSum.view
abbrev VOut0 : View sig .tc .vmem S32x1 .f32 := (Memref.whole cc0_stg2_0 : Memref sig .tc .vmem S32x1 .f32).view

/-- The scoped buffers the first region neither stages nor uses: the second region's six staging buffers, each whole at
    some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The first region's resting invariant, with the two scratch columns as memrefs owned at some contents. -/
theorem PhiA0_eq (c : Dev nD) :
    (Pipeline.ΦA spec0 c : sProp 𝕄)
      = iprop(iprop((∃ d, owns (c : Thread nD τ) scMax fullShare d) ∗ (∃ d, owns (c : Thread nD τ) scSum fullShare d) ∗ others0 c) ∗ (∃ r, prngReg c r)) := by
  unfold Pipeline.ΦA others0; rw [scopedRest0_eq]; simp only [scMax, scSum, owns_whole]; try rfl

end Cert.KernelIdeal.Hand

end
-- ==== Proof.KI.ReduceRuns.lean ====
/-
  The first kernel's body, run once per shape of its control flow. At the first tile it resets the two scratch columns
  (maximum to minus infinity, sum to zero) before the update; at a middle tile it only updates them; at the last tile it
  updates them and then stores maximum + log sum into the output column. Each run says: on whole memrefs, the row block
  and the tile at their contents, the body runs to the end, the inputs are as they were, and each buffer it stored into
  holds its stores, listed last first. The lists are found by running the body.
-/
import proofs.«122219_j74990128988321_1_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First tile: both scratch columns at anything on entry (they are reset first); the output column is not touched. -/
noncomputable def runFirst (c : Dev nD) (i : grid0.Coords) (arg1 : Memref sig .tc .vmem S32x1024 .f32) (harg1 : arg1.IsWhole) (arg2 : Memref sig .tc .vmem S2560x1024 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x1 .f32) (harg5 : arg5.IsWhole) (hc0 : condFirst i) (hc1 : ¬condLast i)
    (x0 : Vec F S32x1024 .f32) (x1 : Vec F S2560x1024 .f32) :
    Σ' (L4 : List (View.Piece (Elt F) S32x1 .f32)), { L5 : List (View.Piece (Elt F) S32x1 .f32) //
      ∀ (xi3 : Vec F S32x1 .f32) (E : Set ℕ) (K : PUnit → sProp 𝕄),
        iprop(owns (c : Thread nD τ) arg1 fullShare x0 ∗ owns (c : Thread nD τ) arg2 fullShare x1 ∗ owns (c : Thread nD τ) arg3 fullShare xi3 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__reduce_kernel i arg1 harg1 arg2 harg2 arg3 harg3 arg4 harg4 arg5 harg5) K } := by
  refine ⟨?_, ?_, fun xi3 E K => ?run⟩
  case run =>
    simp only [cc0__reduce_kernel_eq_skeleton]; unfold cc0__reduce_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

set_option maxHeartbeats 1000000 in
/-- A middle tile: the scratch columns at what the tile before left; the output column is not touched. -/
noncomputable def runMid (c : Dev nD) (i : grid0.Coords) (arg1 : Memref sig .tc .vmem S32x1024 .f32) (harg1 : arg1.IsWhole) (arg2 : Memref sig .tc .vmem S2560x1024 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x1 .f32) (harg5 : arg5.IsWhole) (hc0 : ¬condFirst i) (hc1 : ¬condLast i)
    (x0 : Vec F S32x1024 .f32) (x1 : Vec F S2560x1024 .f32) (xm xs : Vec F S32x1 .f32) :
    Σ' (L4 : List (View.Piece (Elt F) S32x1 .f32)), { L5 : List (View.Piece (Elt F) S32x1 .f32) //
      ∀ (xi3 : Vec F S32x1 .f32) (E : Set ℕ) (K : PUnit → sProp 𝕄),
        iprop(owns (c : Thread nD τ) arg1 fullShare x0 ∗ owns (c : Thread nD τ) arg2 fullShare x1 ∗ owns (c : Thread nD τ) arg3 fullShare xi3 ∗ owns (c : Thread nD τ) arg4 fullShare xm ∗ owns (c : Thread nD τ) arg5 fullShare xs
            ∗ (iprop(owns (c : Thread nD τ) arg1 fullShare x0 ∗ owns (c : Thread nD τ) arg2 fullShare x1 ∗ owns (c : Thread nD τ) arg3 fullShare xi3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__reduce_kernel i arg1 harg1 arg2 harg2 arg3 harg3 arg4 harg4 arg5 harg5) K } := by
  refine ⟨?_, ?_, fun xi3 E K => ?run⟩
  case run =>
    simp only [cc0__reduce_kernel_eq_skeleton]; unfold cc0__reduce_kernel_skel
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := harg1.eq_unread hf1; obtain rfl := harg2.eq_unread hf2; obtain rfl := harg3.eq_unread hf3
    obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

set_option maxHeartbeats 1000000 in
/-- The last tile: the scratch columns at what the tile before left, the output column at anything; it ends stored. -/
noncomputable def runLast (c : Dev nD) (i : grid0.Coords) (arg1 : Memref sig .tc .vmem S32x1024 .f32) (harg1 : arg1.IsWhole) (arg2 : Memref sig .tc .vmem S2560x1024 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x1 .f32) (harg5 : arg5.IsWhole) (hc0 : ¬condFirst i) (hc1 : condLast i)
    (x0 : Vec F S32x1024 .f32) (x1 : Vec F S2560x1024 .f32) (xm xs : Vec F S32x1 .f32) :
    Σ' (L3 : List (View.Piece (Elt F) S32x1 .f32)) (L4 : List (View.Piece (Elt F) S32x1 .f32)), { L5 : List (View.Piece (Elt F) S32x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xm ∗ owns (c : Thread nD τ) arg5 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__reduce_kernel i arg1 harg1 arg2 harg2 arg3 harg3 arg4 harg4 arg5 harg5) K } := by
  refine ⟨?_, ?_, ?_, fun E K => ?run⟩
  case run =>
    simp only [cc0__reduce_kernel_eq_skeleton]; unfold cc0__reduce_kernel_skel
    unfold owns
    iintro ⟨⟨%f1, %hf1, H1⟩, ⟨%f2, %hf2, H2⟩, ⟨%d3, %f3, -, H3⟩, ⟨%f4, %hf4, H4⟩, ⟨%f5, %hf5, H5⟩, Hk⟩
    obtain rfl := harg1.eq_unread hf1; obtain rfl := harg2.eq_unread hf2
    obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    iexists _; iexact H5

end Cert.KernelIdeal.Hand

end
-- ==== Proof.KI.Reduce.lean ====
/-
  The first region, point by point. After tile `n` the two scratch columns hold the running maximum and the running sum
  of the rows' scores against tiles 0..n; `scrAt` names that pair by recursion on the tile, each step being what the
  body's stores leave (the first tile's run from anything, a later tile's run from the pair before). The output column is
  stored at the last tile only. With the pair named, the region's invariant before tile `n + 1` is: the two columns at
  `scrAt n`, the other scoped buffers at anything, the generator register at some state; and the body, at every point,
  takes the invariant before the point to the invariant after it.
-/
import proofs.«122219_j74990128988321_1_alg».proof.Proof.KI.ReduceRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave -/

section Cases
variable (c : Dev nD) (i : grid0.Coords) (arg1 : Memref sig .tc .vmem S32x1024 .f32) (harg1 : arg1.IsWhole) (arg2 : Memref sig .tc .vmem S2560x1024 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x1 .f32) (harg5 : arg5.IsWhole)

theorem coverFirst_max (hc0 : condFirst i) (hc1 : ¬condLast i) (x0 : Vec F S32x1024 .f32) (x1 : Vec F S2560x1024 .f32) (y : S32x1.Idx) :
    ∃ pc ∈ (runFirst c i arg1 harg1 arg2 harg2 arg3 harg3 arg4 harg4 arg5 harg5 hc0 hc1 x0 x1).1, y ∈ pc.1.set :=
  View.cover_of_tiledL (runFirst c i arg1 harg1 arg2 harg2 arg3 harg3 arg4 harg4 arg5 harg5 hc0 hc1 x0 x1).1 S32x1.size (by sl_kernel_rfl) y
theorem coverFirst_sum (hc0 : condFirst i) (hc1 : ¬condLast i) (x0 : Vec F S32x1024 .f32) (x1 : Vec F S2560x1024 .f32) (y : S32x1.Idx) :
    ∃ pc ∈ (runFirst c i arg1 harg1 arg2 harg2 arg3 harg3 arg4 harg4 arg5 harg5 hc0 hc1 x0 x1).2.1, y ∈ pc.1.set :=
  View.cover_of_tiledL (runFirst c i arg1 harg1 arg2 harg2 arg3 harg3 arg4 harg4 arg5 harg5 hc0 hc1 x0 x1).2.1 S32x1.size (by sl_kernel_rfl) y
/-- The pair after the first tile. -/
def pairFirst (hc0 : condFirst i) (hc1 : ¬condLast i) (x0 : Vec F S32x1024 .f32) (x1 : Vec F S2560x1024 .f32) : Vec F S32x1 .f32 × Vec F S32x1 .f32 :=
  (VMax.read (Elt F) (VMax.writes (Elt F) VMax.junk (runFirst c i arg1 harg1 arg2 harg2 arg3 harg3 arg4 harg4 arg5 harg5 hc0 hc1 x0 x1).1),
   VSum.read (Elt F) (VSum.writes (Elt F) VSum.junk (runFirst c i arg1 harg1 arg2 harg2 arg3 harg3 arg4 harg4 arg5 harg5 hc0 hc1 x0 x1).2.1))

theorem coverMid_max (hc0 : ¬condFirst i) (hc1 : ¬condLast i) (x0 : Vec F S32x1024 .f32) (x1 : Vec F S2560x1024 .f32) (xm xs : Vec F S32x1 .f32) (y : S32x1.Idx) :
    ∃ pc ∈ (runMid c i arg1 harg1 arg2 harg2 arg3 harg3 arg4 harg4 arg5 harg5 hc0 hc1 x0 x1 xm xs).1, y ∈ pc.1.set :=
  View.cover_of_tiledL (runMid c i arg1 harg1 arg2 harg2 arg3 harg3 arg4 harg4 arg5 harg5 hc0 hc1 x0 x1 xm xs).1 S32x1.size (by sl_kernel_rfl) y
theorem coverMid_sum (hc0 : ¬condFirst i) (hc1 : ¬condLast i) (x0 : Vec F S32x1024 .f32) (x1 : Vec F S2560x1024 .f32) (xm xs : Vec F S32x1 .f32) (y : S32x1.Idx) :
    ∃ pc ∈ (runMid c i arg1 harg1 arg2 harg2 arg3 harg3 arg4 harg4 arg5 harg5 hc0 hc1 x0 x1 xm xs).2.1, y ∈ pc.1.set :=
  View.cover_of_tiledL (runMid c i arg1 harg1 arg2 harg2 arg3 harg3 arg4 harg4 arg5 harg5 hc0 hc1 x0 x1 xm xs).2.1 S32x1.size (by sl_kernel_rfl) y
/-- The pair after a middle tile, from the pair before it. -/
def pairMid (hc0 : ¬condFirst i) (hc1 : ¬condLast i) (x0 : Vec F S32x1024 .f32) (x1 : Vec F S2560x1024 .f32) (xm xs : Vec F S32x1 .f32) : Vec F S32x1 .f32 × Vec F S32x1 .f32 :=
  (VMax.read (Elt F) (VMax.writes (Elt F) VMax.junk (runMid c i arg1 harg1 arg2 harg2 arg3 harg3 arg4 harg4 arg5 harg5 hc0 hc1 x0 x1 xm xs).1),
   VSum.read (Elt F) (VSum.writes (Elt F) VSum.junk (runMid c i arg1 harg1 arg2 harg2 arg3 harg3 arg4 harg4 arg5 harg5 hc0 hc1 x0 x1 xm xs).2.1))

theorem coverLast_out (hc0 : ¬condFirst i) (hc1 : condLast i) (x0 : Vec F S32x1024 .f32) (x1 : Vec F S2560x1024 .f32) (xm xs : Vec F S32x1 .f32) (y : S32x1.Idx) :
    ∃ pc ∈ (runLast c i arg1 harg1 arg2 harg2 arg3 harg3 arg4 harg4 arg5 harg5 hc0 hc1 x0 x1 xm xs).1, y ∈ pc.1.set :=
  View.cover_of_tiledL (runLast c i arg1 harg1 arg2 harg2 arg3 harg3 arg4 harg4 arg5 harg5 hc0 hc1 x0 x1 xm xs).1 S32x1.size (by sl_kernel_rfl) y
theorem coverLast_max (hc0 : ¬condFirst i) (hc1 : condLast i) (x0 : Vec F S32x1024 .f32) (x1 : Vec F S2560x1024 .f32) (xm xs : Vec F S32x1 .f32) (y : S32x1.Idx) :
    ∃ pc ∈ (runLast c i arg1 harg1 arg2 harg2 arg3 harg3 arg4 harg4 arg5 harg5 hc0 hc1 x0 x1 xm xs).2.1, y ∈ pc.1.set :=
  View.cover_of_tiledL (runLast c i arg1 harg1 arg2 harg2 arg3 harg3 arg4 harg4 arg5 harg5 hc0 hc1 x0 x1 xm xs).2.1 S32x1.size (by sl_kernel_rfl) y
theorem coverLast_sum (hc0 : ¬condFirst i) (hc1 : condLast i) (x0 : Vec F S32x1024 .f32) (x1 : Vec F S2560x1024 .f32) (xm xs : Vec F S32x1 .f32) (y : S32x1.Idx) :
    ∃ pc ∈ (runLast c i arg1 harg1 arg2 harg2 arg3 harg3 arg4 harg4 arg5 harg5 hc0 hc1 x0 x1 xm xs).2.2.1, y ∈ pc.1.set :=
  View.cover_of_tiledL (runLast c i arg1 harg1 arg2 harg2 arg3 harg3 arg4 harg4 arg5 harg5 hc0 hc1 x0 x1 xm xs).2.2.1 S32x1.size (by sl_kernel_rfl) y
/-- The pair after the last tile, and the output column it stores. -/
def pairLast (hc0 : ¬condFirst i) (hc1 : condLast i) (x0 : Vec F S32x1024 .f32) (x1 : Vec F S2560x1024 .f32) (xm xs : Vec F S32x1 .f32) : Vec F S32x1 .f32 × Vec F S32x1 .f32 :=
  (VMax.read (Elt F) (VMax.writes (Elt F) VMax.junk (runLast c i arg1 harg1 arg2 harg2 arg3 harg3 arg4 harg4 arg5 harg5 hc0 hc1 x0 x1 xm xs).2.1),
   VSum.read (Elt F) (VSum.writes (Elt F) VSum.junk (runLast c i arg1 harg1 arg2 harg2 arg3 harg3 arg4 harg4 arg5 harg5 hc0 hc1 x0 x1 xm xs).2.2.1))
def outLast (hc0 : ¬condFirst i) (hc1 : condLast i) (x0 : Vec F S32x1024 .f32) (x1 : Vec F S2560x1024 .f32) (xm xs : Vec F S32x1 .f32) : Vec F S32x1 .f32 :=
  VOut0.read (Elt F) (VOut0.writes (Elt F) VOut0.junk (runLast c i arg1 harg1 arg2 harg2 arg3 harg3 arg4 harg4 arg5 harg5 hc0 hc1 x0 x1 xm xs).1)

end Cases

/-! ## The pair after each tile -/

section Region
variable (V : (c : Dev nD) → (b : Ref sig .tc) → Buf (Elt F) ((c : Thread nD τ).loc b))

theorem first_of_zero (t : Fin cfg0.N) (h : t.val = 0) : condFirst (grid0.coords t) := (condFirst_iff t).mpr h
theorem not_first_of_pos (t : Fin cfg0.N) (h : t.val ≠ 0) : ¬condFirst (grid0.coords t) := fun hc => h ((condFirst_iff t).mp hc)
theorem last_of_eq (t : Fin cfg0.N) (h : t.val = 49) : condLast (grid0.coords t) := (condLast_iff t).mpr h
theorem not_last_of_ne (t : Fin cfg0.N) (h : t.val ≠ 49) : ¬condLast (grid0.coords t) := fun hc => h ((condLast_iff t).mp hc)

/-- THE RECURSION: the two scratch columns after tile `n`. -/
def scrAt (c : Dev nD) : (n : ℕ) → n < cfg0.N → Vec F S32x1 .f32 × Vec F S32x1 .f32
  | 0, hn => pairFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scMax (Memref.isWhole_whole _) scSum (Memref.isWhole_whole _) (first_of_zero ⟨0, hn⟩ rfl) (not_last_of_ne ⟨0, hn⟩ (show (0 : ℕ) ≠ 49 by decide)) (iblk0 V c 0 ⟨0, hn⟩) (iblk0 V c 1 ⟨0, hn⟩)
  | n + 1, hn =>
    if h1 : n + 1 = 49 then
      pairLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (not_first_of_pos ⟨n + 1, hn⟩ (Nat.succ_ne_zero n)) (last_of_eq ⟨n + 1, hn⟩ h1) (iblk0 V c 0 ⟨n + 1, hn⟩) (iblk0 V c 1 ⟨n + 1, hn⟩) (scrAt c n (Nat.lt_of_succ_lt hn)).1 (scrAt c n (Nat.lt_of_succ_lt hn)).2
    else
      pairMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (not_first_of_pos ⟨n + 1, hn⟩ (Nat.succ_ne_zero n)) (not_last_of_ne ⟨n + 1, hn⟩ h1) (iblk0 V c 0 ⟨n + 1, hn⟩) (iblk0 V c 1 ⟨n + 1, hn⟩) (scrAt c n (Nat.lt_of_succ_lt hn)).1 (scrAt c n (Nat.lt_of_succ_lt hn)).2

/-- The output column's buffer after tile `n`: stored at the last tile; before it the buffer is idle and this value is
    not consulted. -/
def outAt (c : Dev nD) : (n : ℕ) → n < cfg0.N → Vec F S32x1 .f32
  | 0, _ => VOut0.read (Elt F) VOut0.junk
  | n + 1, hn =>
    if h1 : n + 1 = 49 then
      outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) (not_first_of_pos ⟨n + 1, hn⟩ (Nat.succ_ne_zero n)) (last_of_eq ⟨n + 1, hn⟩ h1) (iblk0 V c 0 ⟨n + 1, hn⟩) (iblk0 V c 1 ⟨n + 1, hn⟩) (scrAt V c n (Nat.lt_of_succ_lt hn)).1 (scrAt V c n (Nat.lt_of_succ_lt hn)).2
    else VOut0.read (Elt F) VOut0.junk

theorem scrAt_first (c : Dev nD) (t : Fin cfg0.N) (h0 : t.val = 0) :
    scrAt V c t.val t.isLt = pairFirst c (grid0.coords t) (ms0_0 t) (hs0_0 t) (ms0_1 t) (hs0_1 t) (ms0_2 t) (hs0_2 t) scMax (Memref.isWhole_whole _) scSum (Memref.isWhole_whole _) (first_of_zero t h0) (not_last_of_ne t (by omega)) (iblk0 V c 0 t) (iblk0 V c 1 t) := by
  obtain ⟨n, hn⟩ := t
  cases n with
  | zero => rfl
  | succ n => exact absurd h0 (Nat.succ_ne_zero n)

theorem scrAt_mid (c : Dev nD) (t : Fin cfg0.N) (h0 : t.val ≠ 0) (h1 : t.val ≠ 49) :
    scrAt V c t.val t.isLt = pairMid c (grid0.coords t) (ms0_0 t) (hs0_0 t) (ms0_1 t) (hs0_1 t) (ms0_2 t) (hs0_2 t) scMax (Memref.isWhole_whole _) scSum (Memref.isWhole_whole _) (not_first_of_pos t h0) (not_last_of_ne t h1) (iblk0 V c 0 t) (iblk0 V c 1 t)
      (scrAt V c (t.val - 1) (Nat.lt_of_le_of_lt (Nat.sub_le _ _) t.isLt)).1 (scrAt V c (t.val - 1) (Nat.lt_of_le_of_lt (Nat.sub_le _ _) t.isLt)).2 := by
  obtain ⟨n, hn⟩ := t
  cases n with
  | zero => exact absurd rfl h0
  | succ n => exact (dif_neg h1).trans rfl

theorem scrAt_last (c : Dev nD) (t : Fin cfg0.N) (h0 : t.val ≠ 0) (h1 : t.val = 49) :
    scrAt V c t.val t.isLt = pairLast c (grid0.coords t) (ms0_0 t) (hs0_0 t) (ms0_1 t) (hs0_1 t) (ms0_2 t) (hs0_2 t) scMax (Memref.isWhole_whole _) scSum (Memref.isWhole_whole _) (not_first_of_pos t h0) (last_of_eq t h1) (iblk0 V c 0 t) (iblk0 V c 1 t)
      (scrAt V c (t.val - 1) (Nat.lt_of_le_of_lt (Nat.sub_le _ _) t.isLt)).1 (scrAt V c (t.val - 1) (Nat.lt_of_le_of_lt (Nat.sub_le _ _) t.isLt)).2 := by
  obtain ⟨n, hn⟩ := t
  cases n with
  | zero => exact absurd rfl h0
  | succ n => exact (dif_pos h1).trans rfl

theorem outAt_last (c : Dev nD) (t : Fin cfg0.N) (h0 : t.val ≠ 0) (h1 : t.val = 49) :
    outAt V c t.val t.isLt = outLast c (grid0.coords t) (ms0_0 t) (hs0_0 t) (ms0_1 t) (hs0_1 t) (ms0_2 t) (hs0_2 t) scMax (Memref.isWhole_whole _) scSum (Memref.isWhole_whole _) (not_first_of_pos t h0) (last_of_eq t h1) (iblk0 V c 0 t) (iblk0 V c 1 t)
      (scrAt V c (t.val - 1) (Nat.lt_of_le_of_lt (Nat.sub_le _ _) t.isLt)).1 (scrAt V c (t.val - 1) (Nat.lt_of_le_of_lt (Nat.sub_le _ _) t.isLt)).2 := by
  obtain ⟨n, hn⟩ := t
  cases n with
  | zero => exact absurd rfl h0
  | succ n => exact (dif_pos h1).trans rfl

/-! ## The invariant and the proof data -/

/-- Before tile `n`: at the start the region's resting invariant (both columns at anything); afterwards the columns at
    what tile `n - 1` left. -/
def PhiS (c : Dev nD) : (n : ℕ) → n ≤ cfg0.N → sProp 𝕄
  | 0, _ => Pipeline.ΦA spec0 c
  | n + 1, hn => iprop(iprop(owns (c : Thread nD τ) scMax fullShare (scrAt V c n hn).1 ∗ owns (c : Thread nD τ) scSum fullShare (scrAt V c n hn).2 ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scMax fullShare (scrAt V c n hn).1 ∗ owns (c : Thread nD τ) scSum fullShare (scrAt V c n hn).2 ∗ others0 c) ∗ (∃ r, prngReg c r)) := rfl
theorem PhiS_pos (c : Dev nD) (n : ℕ) (h : n ≤ cfg0.N) (hz : n ≠ 0) :
    PhiS V c n h = iprop(iprop(owns (c : Thread nD τ) scMax fullShare (scrAt V c (n - 1) (by omega)).1 ∗ owns (c : Thread nD τ) scSum fullShare (scrAt V c (n - 1) (by omega)).2 ∗ others0 c) ∗ (∃ r, prngReg c r)) := by
  cases n with
  | zero => exact absurd rfl hz
  | succ n => rfl

/-- The first region's proof data: the arrays as the region finds them; after the body each input's buffer at its
    block and the output column's at `outAt`; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by dsimp only [dat0]
theorem PhiS_castSucc (c : Dev nD) (t : Fin cfg0.N) : (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · -- the first tile
    have h1 : t.val ≠ 49 := by omega
    rw [Dat.leavesExact_idle (dat0 V c) 2 t (idleAt0_2 t (not_last_of_ne t h1)) (noFlush0_2 t (not_last_of_ne t h1))]
    rw [scrAt_first V c t h0]
    unfold pairFirst; (try dsimp only)
    rw [PhiS_castSucc V c t, PhiS_zero V c _ _ h0, PhiA0_eq]
    iintro ⟨⟨⟨HM, HS, HO⟩, Hg⟩, Ho, ⟨%d0, H0⟩, ⟨%d1, H1⟩, ⟨%d2, H2⟩⟩
    iapply ((runFirst c (grid0.coords t) _ _ _ _ _ _ _ _ _ _ (first_of_zero t h0) (not_last_of_ne t h1) (iblk0 V c 0 t) (iblk0 V c 1 t)).2.2 _ Set.univ _)
    isplitl [H0]; · iexact H0
    isplitl [H1]; · iexact H1
    isplitl [H2]; · iexact H2
    isplitl [HM]; · iexact HM
    isplitl [HS]; · iexact HS
    iintro ⟨H0, H1, H2, ⟨%e4, HM⟩, ⟨%e5, HS⟩⟩
    isplitl [HM HS HO Hg]
    · isplitl [HM HS HO]
      · isplitl [HM]
        · unfold owns; iexists _; isplitr
          swap; · iexact HM
          ipureintro; exact View.read_writes_of_cover _ _ _ _ _ (coverFirst_max c _ _ _ _ _ _ _ _ _ _ _ _ _ _ _)
        isplitl [HS]
        · unfold owns; iexists _; isplitr
          swap; · iexact HS
          ipureintro; exact View.read_writes_of_cover _ _ _ _ _ (coverFirst_sum c _ _ _ _ _ _ _ _ _ _ _ _ _ _ _)
        iexact HO
      iexact Hg
    isplitl [Ho]; · iexact Ho
    isplitl [H0]; · iexact H0
    isplitl [H1]; · iexact H1
    iexists _; iexact H2
  · by_cases h1 : t.val = 49
    · -- the last tile
      rw [show (dat0 V c).leavesExact 2 t = owns (c : Thread nD τ) (ms0_2 t) fullShare ((dat0 V c).after 2 t) from by
        unfold Dat.leavesExact; rw [liveAt0_2 t (last_of_eq t h1)], after0_2]
      rw [scrAt_last V c t h0 h1, outAt_last V c t h0 h1]
      unfold pairLast outLast; (try dsimp only)
      rw [PhiS_castSucc V c t, PhiS_pos V c _ _ h0]
      iintro ⟨⟨⟨HM, HS, HO⟩, Hg⟩, Ho, ⟨%d0, H0⟩, ⟨%d1, H1⟩, ⟨%d2, H2⟩⟩
      iapply ((runLast c (grid0.coords t) _ _ _ _ _ _ _ _ _ _ (not_first_of_pos t h0) (last_of_eq t h1) (iblk0 V c 0 t) (iblk0 V c 1 t) _ _).2.2.2 Set.univ _)
      isplitl [H0]; · iexact H0
      isplitl [H1]; · iexact H1
      isplitl [H2]; · iexists _; iexact H2
      isplitl [HM]; · iexact HM
      isplitl [HS]; · iexact HS
      iintro ⟨H0, H1, ⟨%e3, H2⟩, ⟨%e4, HM⟩, ⟨%e5, HS⟩⟩
      isplitl [HM HS HO Hg]
      · isplitl [HM HS HO]
        · isplitl [HM]
          · unfold owns; iexists _; isplitr
            swap; · iexact HM
            ipureintro; exact View.read_writes_of_cover _ _ _ _ _ (coverLast_max c _ _ _ _ _ _ _ _ _ _ _ _ _ _ _ _ _)
          isplitl [HS]
          · unfold owns; iexists _; isplitr
            swap; · iexact HS
            ipureintro; exact View.read_writes_of_cover _ _ _ _ _ (coverLast_sum c _ _ _ _ _ _ _ _ _ _ _ _ _ _ _ _ _)
          iexact HO
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast_out c _ _ _ _ _ _ _ _ _ _ _ _ _ _ _ _ _)
    · -- a middle tile
      rw [Dat.leavesExact_idle (dat0 V c) 2 t (idleAt0_2 t (not_last_of_ne t h1)) (noFlush0_2 t (not_last_of_ne t h1))]
      rw [scrAt_mid V c t h0 h1]
      unfold pairMid; (try dsimp only)
      rw [PhiS_castSucc V c t, PhiS_pos V c _ _ h0]
      iintro ⟨⟨⟨HM, HS, HO⟩, Hg⟩, Ho, ⟨%d0, H0⟩, ⟨%d1, H1⟩, ⟨%d2, H2⟩⟩
      iapply ((runMid c (grid0.coords t) _ _ _ _ _ _ _ _ _ _ (not_first_of_pos t h0) (not_last_of_ne t h1) (iblk0 V c 0 t) (iblk0 V c 1 t) _ _).2.2 _ Set.univ _)
      isplitl [H0]; · iexact H0
      isplitl [H1]; · iexact H1
      isplitl [H2]; · iexact H2
      isplitl [HM]; · iexact HM
      isplitl [HS]; · iexact HS
      iintro ⟨H0, H1, H2, ⟨%e4, HM⟩, ⟨%e5, HS⟩⟩
      isplitl [HM HS HO Hg]
      · isplitl [HM HS HO]
        · isplitl [HM]
          · unfold owns; iexists _; isplitr
            swap; · iexact HM
            ipureintro; exact View.read_writes_of_cover _ _ _ _ _ (coverMid_max c _ _ _ _ _ _ _ _ _ _ _ _ _ _ _ _ _)
          isplitl [HS]
          · unfold owns; iexists _; isplitr
            swap; · iexact HS
            ipureintro; exact View.read_writes_of_cover _ _ _ _ _ (coverMid_sum c _ _ _ _ _ _ _ _ _ _ _ _ _ _ _ _ _)
          iexact HO
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last tile the invariant gives the resting invariant back: the columns' named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HM, HS, HO⟩, Hg⟩
  isplitl [HM HS HO]
  · isplitl [HM]; · iexists _; iexact HM
    isplitl [HS]; · iexists _; iexact HS
    iexact HO
  iexact Hg

end Region

end Cert.KernelIdeal.Hand

end
-- ==== Proof.KI.NormRun.lean ====
/-
  The second kernel's body: it loads the row block, the tile and the log-sum-exp column, and stores into the output block
  the exponentials of (scores of the rows against the tile's atoms, minus the column). One store covers the block.
-/
import proofs.«122219_j74990128988321_1_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rRows : Rect S32x1024 := Rect.unit (s := S32x1024) ![0, 0] S32x1024.size inb_S32x1024_S32x1024_0_0
abbrev rTile : Rect S2560x1024 := Rect.unit (s := S2560x1024) ![0, 0] S2560x1024.size inb_S2560x1024_S2560x1024_0_0
abbrev rCol : Rect S32x1 := Rect.unit (s := S32x1) ![0, 0] S32x1.size inb_S32x1_S32x1_0_0
abbrev rOut : Rect S32x2560 := Rect.unit (s := S32x2560) ![0, 0] S32x2560.size inb_S32x2560_S32x2560_0_0

/-- What the body leaves in the output block's buffer, from the three input blocks. -/
def out1_3 (x0 : Vec F S32x1024 .f32) (x1 : Vec F S2560x1024 .f32) (x2 : Vec F S32x1 .f32) : Vec F S32x2560 .f32 :=
  View.canon [⟨rOut, k1_pay1 (View.ld x0 rRows) (View.ld x1 rTile) (View.ld x2 rCol)⟩]

/-- The one store covers the block. -/
theorem cover1_3 (p0 : Vec F S32x2560 .f32) (y : S32x2560.Idx) :
    ∃ pc ∈ ([⟨rOut, p0⟩] : List (View.Piece (Elt F) S32x2560 .f32)), y ∈ pc.1.set :=
  View.cover_of_tiled [⟨rOut, p0⟩] S32x2560.size (by rfl) y

set_option maxHeartbeats 1000000 in
theorem sound_kernel1 (c : Dev nD) (E : Set ℕ) (i : grid1.Coords) (arg1 : Memref sig .tc .vmem S32x1024 .f32) (harg1 : arg1.IsWhole) (arg2 : Memref sig .tc .vmem S2560x1024 .f32) (harg2 : arg2.IsWhole) (arg3 : Memref sig .tc .vmem S32x1 .f32) (harg3 : arg3.IsWhole) (arg4 : Memref sig .tc .vmem S32x2560 .f32) (harg4 : arg4.IsWhole)
    (x0 : Vec F S32x1024 .f32) (x1 : Vec F S2560x1024 .f32) (x2 : Vec F S32x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__normalize_kernel i arg1 harg1 arg2 harg2 arg3 harg3 arg4 harg4) K := by
  simp only [cc1__normalize_kernel_eq_skeleton]; unfold cc1__normalize_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 _)

end Cert.KernelIdeal.Hand

end
-- ==== Proof.KI.Norm.lean ====
/-
  The second region, point by point: at tile `t` the body finds the row block, tile `t` and the log-sum-exp column in
  their staging buffers and leaves in the output block's buffer the normalised exponentials of that tile's scores;
  it keeps nothing between points.
-/
import proofs.«122219_j74990128988321_1_alg».proof.Proof.KI.NormRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The second region's proof data: the arrays as the region finds them; after the body each input's buffer at its
    block and the output's at the body's store over those blocks; the resting invariant throughout; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KI.Run.lean ====
/-
  The whole program: two regions in a row. The buffer contents at the three boundaries are a fold from the launch memory:
  at the start the launch contents; after the first region its arrays at what its write-backs leave (the log-sum-exp
  column written once, at the last tile; the two arguments only read); after the second region its arrays likewise (the
  result written tile by tile). Each region is entered from "every unscoped buffer at the boundary's contents, the
  generator register at some state, nothing owed" and left at the same with the next contents. The run ends with every
  unscoped buffer at the last contents; reading that at the arguments gives the frame, and at the result its value.
-/
import proofs.«122219_j74990128988321_1_alg».proof.Proof.KI.Reduce
import proofs.«122219_j74990128988321_1_alg».proof.Proof.KI.Norm

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the first region. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the second region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- The arguments end as launched: both regions only read them. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (V1 m) c).arrAt_in 0 rfl _).trans (A_eq1 (V1 m) c 0))
    _ = W0 m c (Proc.devRef .tc main_arg0) := (W1_arr m c 0).trans (((dat0 (V0 m) c).arrAt_in 0 rfl _).trans (A_eq0 (V0 m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 1).trans (((dat1 (V1 m) c).arrAt_in 1 rfl _).trans (A_eq1 (V1 m) c 1))
    _ = W0 m c (Proc.devRef .tc main_arg1) := (W1_arr m c 1).trans (((dat0 (V0 m) c).arrAt_in 1 rfl _).trans (A_eq0 (V0 m) c 1))
    _ = m ((c : Thread nD τ).loc main_arg1) := rfl
/-- The result ends at what the second region's write-backs leave. -/
theorem W2_main_v1 (c : Dev nD) : W2 m c (Proc.devRef .tc main_v1) = (dat1 (V1 m) c).arrAt 3 cfg1.N := W2_arr m c 3
/-- The second region finds the arguments as launched and the column at what the first region's write-back left. -/
theorem V1_main_arg0 (c : Dev nD) : V1 m c main_arg0 = m ((c : Thread nD τ).loc main_arg0) :=
  (W1_arr m c 0).trans (((dat0 (V0 m) c).arrAt_in 0 rfl _).trans (A_eq0 (V0 m) c 0))
theorem V1_main_arg1 (c : Dev nD) : V1 m c main_arg1 = m ((c : Thread nD τ).loc main_arg1) :=
  (W1_arr m c 1).trans (((dat0 (V0 m) c).arrAt_in 1 rfl _).trans (A_eq0 (V0 m) c 1))
theorem V1_main_v0 (c : Dev nD) : V1 m c main_v0 = (dat0 (V0 m) c).arrAt 2 cfg0.N := W1_arr m c 2

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h1 : (pdats m 0 c).Φ (Fin.last _) ⊢ (Pipeline.ΦA spec0 c : sProp 𝕄) := hout0 (V0 m) c
    have h2 : (Pipeline.ΦA spec0 c : sProp 𝕄) ⊢ iprop((∃ r, prngReg c r) ∗ (BI.emp : sProp 𝕄) ∗ Pipeline.scopedRest spec0 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) :=
  main_segs adm (pdats m) () 𝒱₀ L lv (reg0 m) (reg1 m) c

set_option backward.isDefEq.respectTransparency.types false in
/-- THE RUN, at any float instance: from any memory with zero counters every weakly fair execution of the program
    terminates, nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W2_main_arg0 m c),
     (h c _ (mem_uc main_arg1 (by decide))).trans (W2_main_arg1 m c)⟩) (run_all m ρ)

/-- THE RESULT: it ends at what the second region's write-backs leave, the arguments as launched. -/
theorem run_result : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c)⟩) (run_all m ρ)

end Cert.KernelIdeal.Hand

end
-- ==== Proof.Val.Pieces.lean ====
/-
  What each case of the first kernel leaves, as the kernel's arithmetic: every store is a whole-column store, so a
  column ends at the payload of its last store, and a load placed after a store of the same body reads that payload.
  A middle or last tile takes the pair (m, l) to (new maximum of m and the tile, rescaled l plus the tile's sum); the first
  tile does the same from the reset pair; the last tile then stores new maximum + log new sum.
-/
import proofs.«122219_j74990128988321_1_alg».proof.Proof.KI.Reduce
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

section Cases
variable (c : Dev nD) (i : grid0.Coords) (arg1 : Memref sig .tc .vmem S32x1024 .f32) (harg1 : arg1.IsWhole) (arg2 : Memref sig .tc .vmem S2560x1024 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x1 .f32) (harg5 : arg5.IsWhole)

theorem pairMid_eq (hc0 : ¬condFirst i) (hc1 : ¬condLast i) (x0 : Vec F S32x1024 .f32) (x1 : Vec F S2560x1024 .f32) (xm xs : Vec F S32x1 .f32) :
    pairMid c i arg1 harg1 arg2 harg2 arg3 harg3 arg4 harg4 arg5 harg5 hc0 hc1 x0 x1 xm xs = (k0_pay6 x0 x1 xm, k0_pay5 x0 x1 xm xm xs) := by
  unfold pairMid
  rw [View.read_writes_eq_canon _ _ _ (coverMid_max c i arg1 harg1 arg2 harg2 arg3 harg3 arg4 harg4 arg5 harg5 hc0 hc1 x0 x1 xm xs), View.read_writes_eq_canon _ _ _ (coverMid_sum c i arg1 harg1 arg2 harg2 arg3 harg3 arg4 harg4 arg5 harg5 hc0 hc1 x0 x1 xm xs)]
  unfold runMid
  dsimp only
  sl_unfold_words
  rw [View.canon_unit_zero hz2, View.canon_unit_zero hz2]
  simp only [View.readAt_eq_ld, harg1.read_unread, harg2.read_unread, harg4.read_unread, harg5.read_unread, View.ld_unit_zero (S := S32x1024) hz2, View.ld_unit_zero (S := S2560x1024) hz2, View.ld_unit_zero (S := S32x1) hz2]

theorem pairLast_eq (hc0 : ¬condFirst i) (hc1 : condLast i) (x0 : Vec F S32x1024 .f32) (x1 : Vec F S2560x1024 .f32) (xm xs : Vec F S32x1 .f32) :
    pairLast c i arg1 harg1 arg2 harg2 arg3 harg3 arg4 harg4 arg5 harg5 hc0 hc1 x0 x1 xm xs = (k0_pay6 x0 x1 xm, k0_pay5 x0 x1 xm xm xs) := by
  unfold pairLast
  rw [View.read_writes_eq_canon _ _ _ (coverLast_max c i arg1 harg1 arg2 harg2 arg3 harg3 arg4 harg4 arg5 harg5 hc0 hc1 x0 x1 xm xs), View.read_writes_eq_canon _ _ _ (coverLast_sum c i arg1 harg1 arg2 harg2 arg3 harg3 arg4 harg4 arg5 harg5 hc0 hc1 x0 x1 xm xs)]
  unfold runLast
  dsimp only
  sl_unfold_words
  rw [View.canon_unit_zero hz2, View.canon_unit_zero hz2]
  simp only [View.readAt_eq_ld, harg1.read_unread, harg2.read_unread, harg4.read_unread, harg5.read_unread, View.ld_unit_zero (S := S32x1024) hz2, View.ld_unit_zero (S := S2560x1024) hz2, View.ld_unit_zero (S := S32x1) hz2]

theorem outLast_eq (hc0 : ¬condFirst i) (hc1 : condLast i) (x0 : Vec F S32x1024 .f32) (x1 : Vec F S2560x1024 .f32) (xm xs : Vec F S32x1 .f32) :
    outLast c i arg1 harg1 arg2 harg2 arg3 harg3 arg4 harg4 arg5 harg5 hc0 hc1 x0 x1 xm xs = k0_pay7 (k0_pay6 x0 x1 xm) (k0_pay5 x0 x1 xm xm xs) := by
  unfold outLast
  rw [View.read_writes_eq_canon _ _ _ (coverLast_out c i arg1 harg1 arg2 harg2 arg3 harg3 arg4 harg4 arg5 harg5 hc0 hc1 x0 x1 xm xs)]
  unfold runLast
  dsimp only
  sl_unfold_words
  rw [View.canon_unit_zero hz2]
  simp only [View.readCov_unit_zero arg4.view hz2 inb_S32x1_S32x1_0_0, View.readCov_unit_zero arg5.view hz2 inb_S32x1_S32x1_0_0, View.readAt_eq_ld, harg1.read_unread, harg2.read_unread, harg4.read_unread, harg5.read_unread, View.ld_unit_zero (S := S32x1024) hz2, View.ld_unit_zero (S := S2560x1024) hz2, View.ld_unit_zero (S := S32x1) hz2]

theorem pairFirst_eq (hc0 : condFirst i) (hc1 : ¬condLast i) (x0 : Vec F S32x1024 .f32) (x1 : Vec F S2560x1024 .f32) :
    pairFirst c i arg1 harg1 arg2 harg2 arg3 harg3 arg4 harg4 arg5 harg5 hc0 hc1 x0 x1 = (k0_pay6 x0 x1 k0_pay1, k0_pay5 x0 x1 k0_pay1 k0_pay1 k0_pay2) := by
  unfold pairFirst
  rw [View.read_writes_eq_canon _ _ _ (coverFirst_max c i arg1 harg1 arg2 harg2 arg3 harg3 arg4 harg4 arg5 harg5 hc0 hc1 x0 x1), View.read_writes_eq_canon _ _ _ (coverFirst_sum c i arg1 harg1 arg2 harg2 arg3 harg3 arg4 harg4 arg5 harg5 hc0 hc1 x0 x1)]
  unfold runFirst
  dsimp only
  sl_unfold_words
  rw [View.canon_cons_unit_zero hz2, View.canon_cons_unit_zero hz2]
  simp only [View.readCov_unit_zero arg4.view hz2 inb_S32x1_S32x1_0_0, View.readCov_unit_zero arg5.view hz2 inb_S32x1_S32x1_0_0, View.readAt_eq_ld, harg1.read_unread, harg2.read_unread, harg4.read_unread, harg5.read_unread, View.ld_unit_zero (S := S32x1024) hz2, View.ld_unit_zero (S := S2560x1024) hz2, View.ld_unit_zero (S := S32x1) hz2]

end Cases

end Cert.KernelIdeal.Hand

end
-- ==== Proof.LibLastAxisFolds.lean ====
/-
  Folds along the LAST axis of a rank-2 array at the ideal values, in the form a kernel's own text takes.

  A kernel's `vector.multi_reduction` carries two facts besides its operand: that its float type is one the
  operation is defined at, and that its accumulator is the operation's neutral word. A printed kernel states the
  first as the disjunction itself and the second as an equation between the two literal words. The lemmas here take
  the two facts in exactly that spelling, for any extents, so they rewrite a kernel's value as it stands:

  * `rowsum_fn` / `rowmax_fn`: the reduction, as a function of the row, is the sum over the row / the fold of `max`
    over the row from minus infinity. They contain no index, so `rw` can replace every reduction of a value before
    the value is read at an entry, also the ones that end up under a sum or a fold;
  * `rowsum_apply` / `rowmax_apply`: the same at a row given by its coordinate.

  With them: a one-column matrix `[a, 1]` laid out as one row `[1, a]` read at `(u, i)` is the column at `(i, 0)`, the
  counterpart of a vector laid out as a row; and square root, exponential and sigmoid of a vector read at an index.
-/
import Idealize.ShloMosaic.PureOps.Ideal.Laws
import Idealize.ShloMosaic.Lib.ValueIdx
import Idealize.ShloMosaic.Lib.Pipeline.Value

noncomputable section

namespace Cert.Lib.LastAxisFolds

open Idealize.ShloMosaic Idealize.ShloMosaic.ValueIdx

/-- A sum along the last axis from zero, read at its row: the sum over the row. -/
theorem rowsum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the last axis from minus infinity, read at its row: the fold of `max` over the row. -/
theorem rowmax_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin b)).fold max (Ideal.ofBits .f32 0xFF800000#32) f) (funext fun k => ?_)
  exact congrArg src (funext fun d => Fin.ext (by match d with | ⟨0, _⟩ => rfl | ⟨1, _⟩ => rfl))

/-- The sum along the last axis as a function of the row. -/
theorem rowsum_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) :
    multiReduction .add [1] ⟨1, ![a]⟩ src 0x00000000#32 h hφ hacc = fun j => ∑ k : Fin b, src (ix2 (j 0) k) :=
  funext fun j => by
    rw [eq_ix1 j]
    exact rowsum_apply src h hφ hacc (j 0)

/-- The maximum along the last axis as a function of the row. -/
theorem rowmax_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) :
    multiReduction .maximumf [1] ⟨1, ![a]⟩ src 0xFF800000#32 h hφ hacc
      = fun j => (Finset.univ : Finset (Fin b)).fold max (Ideal.ofBits .f32 0xFF800000#32) (fun k => src (ix2 (j 0) k)) :=
  funext fun j => by
    rw [eq_ix1 j]
    exact rowmax_apply src h hφ hacc (j 0)

/-- A one-column matrix laid out as one row reads, at `(u, i)`, the column's entry in row `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.mul_one, Nat.add_zero, Nat.zero_add])

/-- The square root of a vector read at an index. -/
theorem sqrt_apply {s : Shape} {φ : FTy} (a : FVec Ideal s φ) (i : s.Idx) : sqrt a i = Ideal.sqrt (a i) := rfl
/-- The exponential of a vector read at an index. -/
theorem exp_apply {s : Shape} {φ : FTy} (a : FVec Ideal s φ) (i : s.Idx) : exp a i = Ideal.exp (a i) := rfl
/-- The sigmoid of a vector read at an index. -/
theorem logistic_apply {s : Shape} {φ : FTy} (a : FVec Ideal s φ) (i : s.Idx) : logistic a i = Ideal.logistic (a i) := rfl

end Cert.Lib.LastAxisFolds

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.Spec.lean ====
/-
  The mathematics both programs compute, for one row of scores, on the extended reals.

  The kernel walks the row tile by tile keeping a running maximum `m` and a running sum `l` of exponentials
  taken relative to that maximum: a tile with scores `s` replaces `(m, l)` by `(m', l * exp (m - m') + ∑ exp (s j - m'))`
  with `m' = max m (max s)`, starting from `(-∞, 0)`; after the last tile it forms `m + log l` (the log-sum-exp of the row)
  and a second sweep writes `exp (z - (m + log l))`. The reference divides the scores by one, subtracts the row maximum,
  exponentiates and divides by the row sum. `softmaxRow` is the reference's row, `lseRow` the kernel's normaliser.
-/
import Idealize.ShloMosaic.PureOps.Ideal
import Idealize.ShloMosaic.Lib.ValueIdx

noncomputable section

namespace Cert.Spec

open Idealize.ShloMosaic

/-- The maximum of a tile's scores, from minus infinity. -/
def tileMax {n : ℕ} (s : Fin n → EReal) : EReal := (Finset.univ : Finset (Fin n)).fold max ⊥ s

/-- One tile's update of the running pair (maximum, sum of exponentials relative to it). -/
def stepRow {n : ℕ} (s : Fin n → EReal) (p : EReal × EReal) : EReal × EReal :=
  (max p.1 (tileMax s), p.2 * Ideal.exp (p.1 - max p.1 (tileMax s)) + ∑ j, Ideal.exp (s j - max p.1 (tileMax s)))

/-- The running pair after tile `k`, the tiles numbered from zero, started from `(-∞, 0)`. -/
def runRow {n : ℕ} (s : ℕ → Fin n → EReal) : ℕ → EReal × EReal
  | 0 => stepRow (s 0) (⊥, 0)
  | k + 1 => stepRow (s (k + 1)) (runRow s k)

/-- The row's log-sum-exp as the kernel forms it after tile `T`: the running maximum plus the logarithm of the running sum. -/
def lseRow {n : ℕ} (s : ℕ → Fin n → EReal) (T : ℕ) : EReal := (runRow s T).1 + Ideal.log (runRow s T).2

/-- The reference's row: the scores divided by one, shifted by their maximum (taken from minus infinity, and once more
    against minus infinity), exponentiated, and divided by the sum of those exponentials taken from zero. -/
def softmaxRow {N : ℕ} (Z : Fin N → EReal) (i : Fin N) : EReal :=
  Ideal.div (Ideal.exp (Ideal.div (Z i) 1 - max ⊥ ((Finset.univ : Finset (Fin N)).fold max ⊥ fun k => Ideal.div (Z k) 1)))
    (0 + ∑ k, Ideal.exp (Ideal.div (Z k) 1 - max ⊥ ((Finset.univ : Finset (Fin N)).fold max ⊥ fun k => Ideal.div (Z k) 1)))

/-- The score of row `b` against atom `k`: the dot product over the 1024 features. -/
def score (x : (⟨2, ![32, 1024]⟩ : Shape).Idx → EReal) (A : (⟨2, ![128000, 1024]⟩ : Shape).Idx → EReal) (b : Fin 32) (k : Fin 128000) : EReal :=
  ∑ d : Fin 1024, x (ValueIdx.ix2 b d) * A (ValueIdx.ix2 k d)

end Cert.Spec

end
-- ==== Proof.Val.Payloads.lean ====
/-
  The kernels' arithmetic read at an index, on the extended reals. A tile's scores are the dot products of the rows with
  the tile's atoms (the matrix unit's product into a zero accumulator is the plain sum; the change of float format is the
  identity). The first kernel's two column updates, read at a row, are one step of the running (maximum, sum) recurrence
  over that row's tile scores; its initial columns are minus infinity and zero; its final column is maximum + log sum. The
  second kernel's block, read at a row and an atom, is the exponential of the score minus the row's column entry.
-/
import proofs.«122219_j74990128988321_1_alg».proof.Proof.Gen.KernelIdeal.Skeleton
import proofs.«122219_j74990128988321_1_alg».proof.Proof.LibLastAxisFolds
import proofs.«122219_j74990128988321_1_alg».proof.Proof.LibColumnLayout
import proofs.«122219_j74990128988321_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.Val

open Cert.KernelIdeal Cert.KernelIdeal.Gen
open Idealize.ShloMosaic Idealize.ShloMosaic.ValueIdx Idealize.ShloMosaic.ColumnLayout Cert.Lib.LastAxisFolds

/-- The product's dimension numbers: rows against atoms, both contracted along the features. -/
abbrev DK : DotDims S32x1024 S2560x1024 S32x2560 := dot_S32x1024_S2560x1024_S32x2560_1_1_0_0_n_n

theorem ofBits_negInf : Ideal.ofBits .f32 0xFF800000#32 = (⊥ : EReal) := by simp [Ideal.ofBits, Ideal.ieee]

theorem lhsK_0 (i : S32x2560.Idx) (q : DK.contr.Idx) : (DK.lhsIdx i q 0).val = (i 0).val := by
  unfold DotDims.lhsIdx
  rw [dif_neg (show ¬(0 : Fin S32x1024.rank) ∈ DK.lhsBatch by decide), dif_pos (show (0 : Fin S32x1024.rank) ∈ DK.lhsNonContracting by decide)]
  rfl
theorem lhsK_1 (i : S32x2560.Idx) (q : DK.contr.Idx) : (DK.lhsIdx i q 1).val = (q ⟨0, by decide⟩).val :=
  DK.lhsIdx_val_of_single rfl i q
theorem rhsK_0 (i : S32x2560.Idx) (q : DK.contr.Idx) : (DK.rhsIdx i q 0).val = (i 1).val := by
  unfold DotDims.rhsIdx
  rw [dif_neg (show ¬(0 : Fin S2560x1024.rank) ∈ DK.rhsBatch by decide), dif_pos (show (0 : Fin S2560x1024.rank) ∈ DK.rhsNonContracting by decide)]
  rfl
theorem rhsK_1 (i : S32x2560.Idx) (q : DK.contr.Idx) : (DK.rhsIdx i q 1).val = (q ⟨0, by decide⟩).val :=
  DK.rhsIdx_val_of_single rfl i q

/-- The product of the row block with a tile, into zero, read at (row, atom): the dot product over the features. -/
theorem matmul_apply (l : FVec Ideal S32x1024 .bf16) (r : FVec Ideal S2560x1024 .bf16) (p : Fin 32) (q : Fin 2560) :
    matmul DK none l r (constant (F := Ideal) S32x2560 .f32 0x00000000#32) (ix2 p q) = ∑ k : Fin 1024, l (ix2 p k) * r (ix2 q k) := by
  refine (Ideal.matmul_constant_zero_apply DK none l r (ix2 p q)).trans ?_
  rw [← Equiv.sum_comp (contrEquiv1 DK 1024 rfl rfl).symm]
  refine Finset.sum_congr rfl fun k _ => ?_
  have hk := contrEquiv1_symm_val DK 1024 rfl rfl k
  have el : DK.lhsIdx (ix2 p q) ((contrEquiv1 DK 1024 rfl rfl).symm k) = ix2 p k := funext fun a => Fin.ext (by
    match a with
    | ⟨0, _⟩ => exact lhsK_0 _ _
    | ⟨1, _⟩ => exact (lhsK_1 _ _).trans hk)
  have er : DK.rhsIdx (ix2 p q) ((contrEquiv1 DK 1024 rfl rfl).symm k) = ix2 q k := funext fun a => Fin.ext (by
    match a with
    | ⟨0, _⟩ => exact rhsK_0 _ _
    | ⟨1, _⟩ => exact (rhsK_1 _ _).trans hk)
  rw [el, er]

/-- A tile's scores. -/
theorem scores_apply (x0 : Vec Ideal S32x1024 .f32) (x1 : Vec Ideal S2560x1024 .f32) (p : Fin 32) (q : Fin 2560) :
    k0_pay3 (F := Ideal) x0 x1 (ix2 p q) = ∑ k : Fin 1024, x0 (ix2 p k) * x1 (ix2 q k) := by
  unfold k0_pay3
  exact matmul_apply _ _ p q

/-- The new running maximum at a row: the old one against the tile's maximum. -/
theorem max_apply (x0 : Vec Ideal S32x1024 .f32) (x1 : Vec Ideal S2560x1024 .f32) (v10 : Vec Ideal S32x1 .f32) (p : Fin 32) :
    k0_pay4 (F := Ideal) x0 x1 v10 (ix2 p (0 : Fin 1))
      = max (v10 (ix2 p (0 : Fin 1))) ((Finset.univ : Finset (Fin 2560)).fold max (Ideal.ofBits .f32 0xFF800000#32) fun k => k0_pay3 (F := Ideal) x0 x1 (ix2 p k)) := by
  unfold k0_pay4
  refine congrArg (max (v10 (ix2 p (0 : Fin 1)))) ?_
  refine (shapeCast_a_a1_apply _ _ p (0 : Fin 1)).trans ?_
  exact rowmax_apply _ _ _ _ p

theorem pay6_eq (x0 : Vec Ideal S32x1024 .f32) (x1 : Vec Ideal S2560x1024 .f32) (v10 : Vec Ideal S32x1 .f32) :
    k0_pay6 (F := Ideal) x0 x1 v10 = k0_pay4 (F := Ideal) x0 x1 v10 := by
  unfold k0_pay6
  exact shapeCast_self _ _

/-- The new running sum at a row. -/
theorem sum_apply (x0 : Vec Ideal S32x1024 .f32) (x1 : Vec Ideal S2560x1024 .f32) (v10 v12 v20 : Vec Ideal S32x1 .f32) (p : Fin 32) :
    k0_pay5 (F := Ideal) x0 x1 v10 v12 v20 (ix2 p (0 : Fin 1))
      = v20 (ix2 p (0 : Fin 1)) * Ideal.exp (v12 (ix2 p (0 : Fin 1)) - k0_pay4 (F := Ideal) x0 x1 v10 (ix2 p (0 : Fin 1)))
        + ∑ k : Fin 2560, Ideal.exp (k0_pay3 (F := Ideal) x0 x1 (ix2 p k) - k0_pay4 (F := Ideal) x0 x1 v10 (ix2 p (0 : Fin 1))) := by
  unfold k0_pay5
  refine (congrFun (shapeCast_self _ _) (ix2 p (0 : Fin 1))).trans ?_
  refine congrArg (fun z => v20 (ix2 p (0 : Fin 1)) * Ideal.exp (v12 (ix2 p (0 : Fin 1)) - k0_pay4 (F := Ideal) x0 x1 v10 (ix2 p (0 : Fin 1))) + z) ?_
  refine (shapeCast_a_a1_apply _ _ p (0 : Fin 1)).trans ?_
  refine (rowsum_apply _ _ _ _ p).trans ?_
  refine Finset.sum_congr rfl fun k _ => ?_
  exact congrArg (fun z => Ideal.exp (k0_pay3 (F := Ideal) x0 x1 (ix2 p k) - z)) (broadcastTo_a1_ab_apply _ _ p k)

/-- ONE TILE'S UPDATE, at a row: the kernel's two stores are one step of the recurrence over the row's tile scores. -/
theorem step_row (x0 : Vec Ideal S32x1024 .f32) (x1 : Vec Ideal S2560x1024 .f32) (xm xs : Vec Ideal S32x1 .f32) (p : Fin 32) :
    (k0_pay6 (F := Ideal) x0 x1 xm (ix2 p (0 : Fin 1)), k0_pay5 (F := Ideal) x0 x1 xm xm xs (ix2 p (0 : Fin 1)))
      = Cert.Spec.stepRow (fun j : Fin 2560 => k0_pay3 (F := Ideal) x0 x1 (ix2 p j)) (xm (ix2 p (0 : Fin 1)), xs (ix2 p (0 : Fin 1))) := by
  unfold Cert.Spec.stepRow Cert.Spec.tileMax
  rw [pay6_eq, sum_apply, max_apply, ofBits_negInf]

/-- The columns after the reset: minus infinity and zero. -/
theorem pay1_apply (i : S32x1.Idx) : k0_pay1 (F := Ideal) i = (⊥ : EReal) := by
  unfold k0_pay1
  refine (congrFun (shapeCast_self _ _) i).trans ?_
  exact ofBits_negInf
theorem pay2_apply (i : S32x1.Idx) : k0_pay2 (F := Ideal) i = (0 : EReal) := by
  unfold k0_pay2
  refine (congrFun (shapeCast_self _ _) i).trans ?_
  exact Ideal.ofBits_zero_f32

/-- The final column: maximum + log sum. -/
theorem pay7_apply (v32 v33 : Vec Ideal S32x1 .f32) (i : S32x1.Idx) : k0_pay7 (F := Ideal) v32 v33 i = v32 i + Ideal.log (v33 i) := rfl

/-- The second kernel's block at (row, atom): the exponential of the score minus the row's column entry. -/
theorem norm_apply (x0 : Vec Ideal S32x1024 .f32) (x1 : Vec Ideal S2560x1024 .f32) (x2 : Vec Ideal S32x1 .f32) (p : Fin 32) (q : Fin 2560) :
    k1_pay1 (F := Ideal) x0 x1 x2 (ix2 p q) = Ideal.exp ((∑ k : Fin 1024, x0 (ix2 p k) * x1 (ix2 q k)) - x2 (ix2 p (0 : Fin 1))) := by
  unfold k1_pay1
  show Ideal.exp (matmul DK none (truncf .bf16 x0 bitsLt_bf16_f32) (truncf .bf16 x1 bitsLt_bf16_f32) (constant (F := Ideal) S32x2560 .f32 0x00000000#32) (ix2 p q)
      - broadcastTo S32x2560 (shapeCast S32x1 x2 shapeCasts_S32x1_S32x1) broadcasts_S32x1_S32x2560 (ix2 p q)) = _
  rw [matmul_apply, broadcastTo_a1_ab_apply, shapeCast_self]
  rfl

end Cert.Val

end
-- ==== Proof.Val.Blocks.lean ====
/-
  Where each window's block sits in its array. In both sweeps the row block is the whole 32 x 1024 array at every point;
  tile `t` of the atom matrix is rows 2560 t .. 2560 t + 2559; the log-sum-exp column's block is the whole 32 x 1 column;
  and the result's block at point `t` is columns 2560 t .. 2560 t + 2559 of the 32 x 128000 array.
-/
import proofs.«122219_j74990128988321_1_alg».proof.Proof.KI.Shared
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The first sweep's index maps over its grid. -/
theorem idx0_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)
/-- The second sweep's. -/
theorem idx1_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = t.val :=
  (by decide +kernel : ∀ t : Fin grid1.N, _)

theorem tile_lt (t q : ℕ) (ht : t < 50) (hq : q < 2560) : t * 2560 + q < 128000 := by omega

section Reads
variable (V : (c : Dev nD) → (b : Ref sig .tc) → Buf (Elt F) ((c : Thread nD τ).loc b))

theorem rows0_apply (c : Dev nD) (t : Fin cfg0.N) (p : Fin 32) (d : Fin 1024) :
    iblk0 V c 0 t (ix2 p d) = V c main_arg0 (ix2 p d) := by
  show V c main_arg0 (((cfg0.win 0).blk t).view.emb (ix2 p d)) = _
  refine congrArg (V c main_arg0) ?_
  obtain ⟨e0, e1, -⟩ := idx0_facts t
  funext a; apply Fin.ext
  match a with
  | ⟨0, _⟩ => show win0_0.index t (0 : Fin 2) * 32 + 1 * p.val = p.val; omega
  | ⟨1, _⟩ => show win0_0.index t (1 : Fin 2) * 1024 + 1 * d.val = d.val; omega

theorem tile0_apply (c : Dev nD) (t : Fin cfg0.N) (q : Fin 2560) (d : Fin 1024) :
    iblk0 V c 1 t (ix2 q d) = V c main_arg1 (ix2 (⟨t.val * 2560 + q.val, tile_lt t.val q.val (lt_of_lt_of_eq t.isLt N_0) q.isLt⟩ : Fin 128000) d) := by
  show V c main_arg1 (((cfg0.win 1).blk t).view.emb (ix2 q d)) = _
  refine congrArg (V c main_arg1) ?_
  obtain ⟨-, -, e2, e3, -⟩ := idx0_facts t
  funext a; apply Fin.ext
  match a with
  | ⟨0, _⟩ => show win0_1.index t (0 : Fin 2) * 2560 + 1 * q.val = t.val * 2560 + q.val; omega
  | ⟨1, _⟩ => show win0_1.index t (1 : Fin 2) * 1024 + 1 * d.val = d.val; omega

theorem rows1_apply (c : Dev nD) (t : Fin cfg1.N) (p : Fin 32) (d : Fin 1024) :
    iblk1 V c 0 t (ix2 p d) = V c main_arg0 (ix2 p d) := by
  show V c main_arg0 (((cfg1.win 0).blk t).view.emb (ix2 p d)) = _
  refine congrArg (V c main_arg0) ?_
  obtain ⟨e0, e1, -⟩ := idx1_facts t
  funext a; apply Fin.ext
  match a with
  | ⟨0, _⟩ => show win1_0.index t (0 : Fin 2) * 32 + 1 * p.val = p.val; omega
  | ⟨1, _⟩ => show win1_0.index t (1 : Fin 2) * 1024 + 1 * d.val = d.val; omega

theorem tile1_apply (c : Dev nD) (t : Fin cfg1.N) (q : Fin 2560) (d : Fin 1024) :
    iblk1 V c 1 t (ix2 q d) = V c main_arg1 (ix2 (⟨t.val * 2560 + q.val, tile_lt t.val q.val (lt_of_lt_of_eq t.isLt N_1) q.isLt⟩ : Fin 128000) d) := by
  show V c main_arg1 (((cfg1.win 1).blk t).view.emb (ix2 q d)) = _
  refine congrArg (V c main_arg1) ?_
  obtain ⟨-, -, e2, e3, -⟩ := idx1_facts t
  funext a; apply Fin.ext
  match a with
  | ⟨0, _⟩ => show win1_1.index t (0 : Fin 2) * 2560 + 1 * q.val = t.val * 2560 + q.val; omega
  | ⟨1, _⟩ => show win1_1.index t (1 : Fin 2) * 1024 + 1 * d.val = d.val; omega

theorem col1_apply (c : Dev nD) (t : Fin cfg1.N) (p : Fin 32) (u : Fin 1) :
    iblk1 V c 2 t (ix2 p u) = V c main_v0 (ix2 p u) := by
  show V c main_v0 (((cfg1.win 2).blk t).view.emb (ix2 p u)) = _
  refine congrArg (V c main_v0) ?_
  obtain ⟨-, -, -, -, e4, e5, -⟩ := idx1_facts t
  funext a; apply Fin.ext
  match a with
  | ⟨0, _⟩ => show win1_2.index t (0 : Fin 2) * 32 + 1 * p.val = p.val; omega
  | ⟨1, _⟩ => show win1_2.index t (1 : Fin 2) * 1 + 1 * u.val = u.val; omega

end Reads

/-- The result block's entry (row p, offset q) at point `t` sits at (p, 2560 t + q). -/
theorem out1_emb (t : Fin cfg1.N) (p : Fin 32) (q : Fin 2560) :
    ((cfg1.win 3).blk t).view.emb (ix2 p q) = ix2 p (⟨t.val * 2560 + q.val, tile_lt t.val q.val (lt_of_lt_of_eq t.isLt N_1) q.isLt⟩ : Fin 128000) := by
  obtain ⟨-, -, -, -, -, -, e6, e7⟩ := idx1_facts t
  funext a; apply Fin.ext
  match a with
  | ⟨0, _⟩ => show win1_3.index t (0 : Fin 2) * 32 + 1 * p.val = p.val; omega
  | ⟨1, _⟩ => show win1_3.index t (1 : Fin 2) * 2560 + 1 * q.val = t.val * 2560 + q.val; omega

/-- The log-sum-exp column's block is the whole column. -/
theorem out0_emb (t : Fin cfg0.N) (p : Fin 32) (u : Fin 1) :
    ((cfg0.win 2).blk t).view.emb (ix2 p u) = ix2 p u := by
  obtain ⟨-, -, -, -, e4, e5⟩ := idx0_facts t
  funext a; apply Fin.ext
  match a with
  | ⟨0, _⟩ => show win0_2.index t (0 : Fin 2) * 32 + 1 * p.val = p.val; omega
  | ⟨1, _⟩ => show win0_2.index t (1 : Fin 2) * 1 + 1 * u.val = u.val; omega

/-- An index of the result lies in point `t`'s block iff its column is in tile `t`'s range. -/
theorem mem_blk1_3 (t : Fin cfg1.N) (i : S32x128000.Idx) :
    i ∈ ((cfg1.win 3).blk t).view.set ↔ ∀ a : Fin 2, win1_3.index t a * S32x2560.size a ≤ (i a).val ∧ (i a).val < win1_3.index t a * S32x2560.size a + S32x2560.size a := by
  show i ∈ ((View.whole main_v1).slice (win1_3.rect t)).set ↔ _
  rw [View.set_slice_whole, Rect.mem_set_unit]
  exact Iff.rfl
theorem mem_blk0_2 (t : Fin cfg0.N) (i : S32x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v0).slice (win0_2.rect t)).set ↔ _
  rw [View.set_slice_whole, Rect.mem_set_unit]
  exact Iff.rfl

end Cert.KernelIdeal.Hand

end
-- ==== Proof.Val.ReduceValue.lean ====
/-
  The first region's value. For a row `p`, the scores against tile `k` are the dot products of row `p` with the tile's
  2560 atoms. Read at row `p`, the two scratch columns after tile `n` are the running (maximum, sum) pair of the
  recurrence over those scores — by induction on the tile, each step being the kernel's two column stores — and the column
  stored at the last tile is maximum + log sum. The column is written back once, after the last tile, and that block is
  the whole array: so the region leaves, in row `p`, the log-sum-exp of row `p`'s scores as the recurrence forms it.
-/
import proofs.«122219_j74990128988321_1_alg».proof.Proof.Val.Pieces
import proofs.«122219_j74990128988321_1_alg».proof.Proof.Val.Payloads
import proofs.«122219_j74990128988321_1_alg».proof.Proof.Val.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Val

section Value
variable (V : (c : Dev nD) → (b : Ref sig .tc) → Buf (Elt Ideal) ((c : Thread nD τ).loc b))

/-- Row `p`'s scores against tile `k` (zero past the grid, where nothing reads it). -/
def tileScores (c : Dev nD) (p : Fin 32) (k : ℕ) (j : Fin 2560) : EReal :=
  if h : k < cfg0.N then k0_pay3 (F := Ideal) (iblk0 V c 0 ⟨k, h⟩) (iblk0 V c 1 ⟨k, h⟩) (ix2 p j) else 0

theorem tileScores_of_lt (c : Dev nD) (p : Fin 32) (k : ℕ) (h : k < cfg0.N) (j : Fin 2560) :
    tileScores V c p k j = k0_pay3 (F := Ideal) (iblk0 V c 0 ⟨k, h⟩) (iblk0 V c 1 ⟨k, h⟩) (ix2 p j) := dif_pos h

/-- One tile's two column stores, read at a row, from the pair before: one step of the recurrence. -/
theorem step_at (x0 : Vec Ideal S32x1024 .f32) (x1 : Vec Ideal S2560x1024 .f32) (xm xs : Vec Ideal S32x1 .f32) (p : Fin 32)
    (s : Fin 2560 → EReal) (pr : EReal × EReal) (hs : ∀ j, k0_pay3 (F := Ideal) x0 x1 (ix2 p j) = s j)
    (hp : (xm (ix2 p (0 : Fin 1)), xs (ix2 p (0 : Fin 1))) = pr) :
    (k0_pay6 (F := Ideal) x0 x1 xm (ix2 p (0 : Fin 1)), k0_pay5 (F := Ideal) x0 x1 xm xm xs (ix2 p (0 : Fin 1)))
      = Cert.Spec.stepRow s pr := by
  subst hp
  have e : (fun j : Fin 2560 => k0_pay3 (F := Ideal) x0 x1 (ix2 p j)) = s := funext hs
  subst e
  exact step_row x0 x1 xm xs p

set_option maxRecDepth 200000 in
/-- THE INVARIANT: the two columns after tile `n`, read at row `p`, are the recurrence's pair after tile `n`. -/
theorem scrAt_row (c : Dev nD) (p : Fin 32) : ∀ (n : ℕ) (hn : n < cfg0.N),
    ((scrAt V c n hn).1 (ix2 p (0 : Fin 1)), (scrAt V c n hn).2 (ix2 p (0 : Fin 1))) = Cert.Spec.runRow (tileScores V c p) n
  | 0, hn => by
    have e1 : scrAt V c 0 hn = (k0_pay6 (F := Ideal) (iblk0 V c 0 ⟨0, hn⟩) (iblk0 V c 1 ⟨0, hn⟩) (k0_pay1 (F := Ideal)), k0_pay5 (F := Ideal) (iblk0 V c 0 ⟨0, hn⟩) (iblk0 V c 1 ⟨0, hn⟩) (k0_pay1 (F := Ideal)) (k0_pay1 (F := Ideal)) (k0_pay2 (F := Ideal))) :=
      (scrAt_first V c ⟨0, hn⟩ rfl).trans (pairFirst_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scMax (Memref.isWhole_whole _) scSum (Memref.isWhole_whole _) _ _ (iblk0 V c 0 ⟨0, hn⟩) (iblk0 V c 1 ⟨0, hn⟩))
    rw [e1]
    exact step_at (iblk0 V c 0 ⟨0, hn⟩) (iblk0 V c 1 ⟨0, hn⟩) (k0_pay1 (F := Ideal)) (k0_pay2 (F := Ideal)) p (tileScores V c p 0) (⊥, 0)
      (fun j => (tileScores_of_lt V c p 0 hn j).symm) (by rw [pay1_apply, pay2_apply])
  | n + 1, hn => by
    have ih := scrAt_row c p n (Nat.lt_of_succ_lt hn)
    by_cases h1 : n + 1 = 49
    · have e1 : scrAt V c (n + 1) hn = (k0_pay6 (F := Ideal) (iblk0 V c 0 ⟨n + 1, hn⟩) (iblk0 V c 1 ⟨n + 1, hn⟩) (scrAt V c n (Nat.lt_of_succ_lt hn)).1, k0_pay5 (F := Ideal) (iblk0 V c 0 ⟨n + 1, hn⟩) (iblk0 V c 1 ⟨n + 1, hn⟩) (scrAt V c n (Nat.lt_of_succ_lt hn)).1 (scrAt V c n (Nat.lt_of_succ_lt hn)).1 (scrAt V c n (Nat.lt_of_succ_lt hn)).2) :=
        (scrAt_last V c ⟨n + 1, hn⟩ (Nat.succ_ne_zero n) h1).trans (pairLast_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) _ _ (iblk0 V c 0 ⟨n + 1, hn⟩) (iblk0 V c 1 ⟨n + 1, hn⟩) _ _)
      rw [e1]
      exact step_at (iblk0 V c 0 ⟨n + 1, hn⟩) (iblk0 V c 1 ⟨n + 1, hn⟩) (scrAt V c n (Nat.lt_of_succ_lt hn)).1 (scrAt V c n (Nat.lt_of_succ_lt hn)).2 p (tileScores V c p (n + 1)) (Cert.Spec.runRow (tileScores V c p) n)
        (fun j => (tileScores_of_lt V c p (n + 1) hn j).symm) ih
    · have e1 : scrAt V c (n + 1) hn = (k0_pay6 (F := Ideal) (iblk0 V c 0 ⟨n + 1, hn⟩) (iblk0 V c 1 ⟨n + 1, hn⟩) (scrAt V c n (Nat.lt_of_succ_lt hn)).1, k0_pay5 (F := Ideal) (iblk0 V c 0 ⟨n + 1, hn⟩) (iblk0 V c 1 ⟨n + 1, hn⟩) (scrAt V c n (Nat.lt_of_succ_lt hn)).1 (scrAt V c n (Nat.lt_of_succ_lt hn)).1 (scrAt V c n (Nat.lt_of_succ_lt hn)).2) :=
        (scrAt_mid V c ⟨n + 1, hn⟩ (Nat.succ_ne_zero n) h1).trans (pairMid_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scMax (Memref.isWhole_whole _) scSum (Memref.isWhole_whole _) _ _ (iblk0 V c 0 ⟨n + 1, hn⟩) (iblk0 V c 1 ⟨n + 1, hn⟩) _ _)
      rw [e1]
      exact step_at (iblk0 V c 0 ⟨n + 1, hn⟩) (iblk0 V c 1 ⟨n + 1, hn⟩) (scrAt V c n (Nat.lt_of_succ_lt hn)).1 (scrAt V c n (Nat.lt_of_succ_lt hn)).2 p (tileScores V c p (n + 1)) (Cert.Spec.runRow (tileScores V c p) n)
        (fun j => (tileScores_of_lt V c p (n + 1) hn j).symm) ih

set_option maxRecDepth 200000 in
/-- The column stored at the last tile is (maximum + log sum) of the pair after that tile. -/
theorem outAt_eq (c : Dev nD) (t : Fin cfg0.N) (h0 : t.val ≠ 0) (h1 : t.val = 49) :
    outAt V c t.val t.isLt = k0_pay7 (F := Ideal) (scrAt V c t.val t.isLt).1 (scrAt V c t.val t.isLt).2 := by
  have e1 : scrAt V c t.val t.isLt = (k0_pay6 (F := Ideal) (iblk0 V c 0 t) (iblk0 V c 1 t) (scrAt V c (t.val - 1) (Nat.lt_of_le_of_lt (Nat.sub_le _ _) t.isLt)).1, k0_pay5 (F := Ideal) (iblk0 V c 0 t) (iblk0 V c 1 t) (scrAt V c (t.val - 1) (Nat.lt_of_le_of_lt (Nat.sub_le _ _) t.isLt)).1 (scrAt V c (t.val - 1) (Nat.lt_of_le_of_lt (Nat.sub_le _ _) t.isLt)).1 (scrAt V c (t.val - 1) (Nat.lt_of_le_of_lt (Nat.sub_le _ _) t.isLt)).2) :=
    (scrAt_last V c t h0 h1).trans (pairLast_eq c (grid0.coords t) (ms0_0 t) (hs0_0 t) (ms0_1 t) (hs0_1 t) (ms0_2 t) (hs0_2 t) scMax (Memref.isWhole_whole _) scSum (Memref.isWhole_whole _) _ _ (iblk0 V c 0 t) (iblk0 V c 1 t) _ _)
  rw [e1]
  exact (outAt_last V c t h0 h1).trans (outLast_eq c (grid0.coords t) (ms0_0 t) (hs0_0 t) (ms0_1 t) (hs0_1 t) (ms0_2 t) (hs0_2 t) scMax (Memref.isWhole_whole _) scSum (Memref.isWhole_whole _) _ _ (iblk0 V c 0 t) (iblk0 V c 1 t) _ _)

/-- What the first region leaves in the log-sum-exp column: per row, the recurrence's normaliser after the 50 tiles. -/
def lseArr (c : Dev nD) : S32x1.Idx → EReal :=
  fun i => Cert.Spec.lseRow (tileScores V c ⟨(i 0).val, (i 0).isLt⟩) 49

theorem flushed0_2_eq (c : Dev nD) (t : Fin cfg0.N) (hf : (cfg0.win 2).flush t = true) :
    (dat0 V c).flushed 2 t = ((cfg0.win 2).blk t).view.read (Elt Ideal) (lseArr V c) := by
  have hN : t.val < 50 := lt_of_lt_of_eq t.isLt N_0
  have h1 : t.val = 49 := by have := (flush0_2 t).mp hf; omega
  have h0 : t.val ≠ 0 := by omega
  show (cfg0.win 2).cut (grid0.coords t) ((dat0 V c).after 2 t) = _
  rw [after0_2, outAt_eq V c t h0 h1]
  funext j
  obtain ⟨p, u, rfl⟩ : ∃ (p : Fin 32) (u : Fin 1), j = ix2 p u := ⟨j 0, j 1, eq_ix2 j⟩
  obtain rfl : u = 0 := Subsingleton.elim _ _
  show k0_pay7 (F := Ideal) (scrAt V c t.val t.isLt).1 (scrAt V c t.val t.isLt).2 (ix2 p (0 : Fin 1)) = lseArr V c (((cfg0.win 2).blk t).view.emb (ix2 p (0 : Fin 1)))
  rw [out0_emb t p 0, pay7_apply]
  have hr := scrAt_row V c p t.val t.isLt
  have e1 : (scrAt V c t.val t.isLt).1 (ix2 p (0 : Fin 1)) = (Cert.Spec.runRow (tileScores V c p) t.val).1 := congrArg Prod.fst hr
  have e2 : (scrAt V c t.val t.isLt).2 (ix2 p (0 : Fin 1)) = (Cert.Spec.runRow (tileScores V c p) t.val).2 := congrArg Prod.snd hr
  rw [e1, e2, h1]
  rfl

theorem cover0_2 (i : S32x1.Idx) : ∃ t : Fin cfg0.N, (cfg0.win 2).flush t = true ∧ i ∈ ((cfg0.win 2).blk t).view.set := by
  have h49 : 49 < cfg0.N := by rw [show cfg0.N = 50 from N_0]; norm_num
  refine ⟨⟨49, h49⟩, (flush0_2 ⟨49, h49⟩).mpr rfl, ?_⟩
  rw [mem_blk0_2]
  obtain ⟨-, -, -, -, e4, e5⟩ := idx0_facts ⟨49, h49⟩
  have hi0 : (i 0).val < 32 := idx2_lt0 i
  have hi1 : (i 1).val < 1 := idx2_lt1 i
  intro a
  match a with
  | ⟨0, _⟩ => show win0_2.index ⟨49, h49⟩ (0 : Fin 2) * 32 ≤ (i 0).val ∧ (i 0).val < win0_2.index ⟨49, h49⟩ (0 : Fin 2) * 32 + 32; omega
  | ⟨1, _⟩ => show win0_2.index ⟨49, h49⟩ (1 : Fin 2) * 1 ≤ (i 1).val ∧ (i 1).val < win0_2.index ⟨49, h49⟩ (1 : Fin 2) * 1 + 1; omega

/-- THE COLUMN after the first region. -/
theorem final0_2 (c : Dev nD) : (dat0 V c).arrAt 2 cfg0.N = lseArr V c :=
  (dat0 V c).arrAt_eq_of_cover 2 (lseArr V c) (fun t hf => flushed0_2_eq V c t hf) cover0_2

end Value

end Cert.KernelIdeal.Hand

end
-- ==== Proof.Val.NormValue.lean ====
/-
  The second region's value. Point `t` writes back, at (row p, offset q), the exponential of the score of row `p` against
  atom 2560 t + q minus the column entry of row `p`; every column of the result lies in exactly the tile that holds its
  atom, so after the 50 points the result holds, at (row, atom), the exponential of (score - column entry).
-/
import proofs.«122219_j74990128988321_1_alg».proof.Proof.KI.Norm
import proofs.«122219_j74990128988321_1_alg».proof.Proof.Val.Payloads
import proofs.«122219_j74990128988321_1_alg».proof.Proof.Val.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Val

theorem hzero2 : (![0, 0] : Fin 2 → Nat) = fun _ => 0 := funext fun a => by fin_cases a <;> rfl

section Value
variable (V : (c : Dev nD) → (b : Ref sig .tc) → Buf (Elt Ideal) ((c : Thread nD τ).loc b))

/-- What the second region leaves in the result, from the arrays it is entered with. -/
def outArr (c : Dev nD) : S32x128000.Idx → EReal :=
  fun i => Ideal.exp (Cert.Spec.score (V c main_arg0) (V c main_arg1) ⟨(i 0).val, (i 0).isLt⟩ ⟨(i 1).val, (i 1).isLt⟩
    - V c main_v0 (ix2 (⟨(i 0).val, (i 0).isLt⟩ : Fin 32) (0 : Fin 1)))

theorem flushed1_3_eq (c : Dev nD) (t : Fin cfg1.N) :
    (dat1 V c).flushed 3 t = ((cfg1.win 3).blk t).view.read (Elt Ideal) (outArr V c) := by
  show (cfg1.win 3).cut (grid1.coords t) ((dat1 V c).after 3 t) = _
  rw [after1_3]
  unfold out1_3
  rw [View.canon_unit_zero hzero2]
  simp only [View.ld_unit_zero (S := S32x1024) hzero2, View.ld_unit_zero (S := S2560x1024) hzero2, View.ld_unit_zero (S := S32x1) hzero2]
  funext j
  obtain ⟨p, q, rfl⟩ : ∃ (p : Fin 32) (q : Fin 2560), j = ix2 p q := ⟨j 0, j 1, eq_ix2 j⟩
  show k1_pay1 (F := Ideal) (iblk1 V c 0 t) (iblk1 V c 1 t) (iblk1 V c 2 t) (ix2 p q) = outArr V c (((cfg1.win 3).blk t).view.emb (ix2 p q))
  rw [out1_emb t p q]
  refine (norm_apply (iblk1 V c 0 t) (iblk1 V c 1 t) (iblk1 V c 2 t) p q).trans ?_
  simp only [rows1_apply, tile1_apply, col1_apply]
  rfl

theorem covered1_3 (i : S32x128000.Idx) : ∃ t : Fin cfg1.N, (cfg1.win 3).flush t = true ∧ i ∈ ((cfg1.win 3).blk t).view.set := by
  have hi0 : (i 0).val < 32 := idx2_lt0 i
  have hi1 : (i 1).val < 128000 := idx2_lt1 i
  have ht : (i 1).val / 2560 < cfg1.N := by rw [show cfg1.N = 50 from N_1]; omega
  refine ⟨⟨(i 1).val / 2560, ht⟩, flush1_3 _, ?_⟩
  rw [mem_blk1_3]
  obtain ⟨-, -, -, -, -, -, e6, e7⟩ := idx1_facts ⟨(i 1).val / 2560, ht⟩
  have e7' : win1_3.index ⟨(i 1).val / 2560, ht⟩ (1 : Fin 2) = (i 1).val / 2560 := e7
  intro a
  match a with
  | ⟨0, _⟩ => show win1_3.index ⟨(i 1).val / 2560, ht⟩ (0 : Fin 2) * 32 ≤ (i 0).val ∧ (i 0).val < win1_3.index ⟨(i 1).val / 2560, ht⟩ (0 : Fin 2) * 32 + 32; omega
  | ⟨1, _⟩ => show win1_3.index ⟨(i 1).val / 2560, ht⟩ (1 : Fin 2) * 2560 ≤ (i 1).val ∧ (i 1).val < win1_3.index ⟨(i 1).val / 2560, ht⟩ (1 : Fin 2) * 2560 + 2560; omega

/-- THE RESULT after the second region. -/
theorem final1_3 (c : Dev nD) : (dat1 V c).arrAt 3 cfg1.N = outArr V c :=
  (dat1 V c).arrAt_eq_of_cover 3 (outArr V c) (fun t _ => flushed1_3_eq V c t) covered1_3

end Value

end Cert.KernelIdeal.Hand

end
-- ==== Proof.LibSoftmaxRow.lean ====
/-
  Row softmax on the extended reals, for any row length and any value vectors.

  A row of scores `s : Fin n → EReal` is shifted by a number `m`, exponentiated (`p k = exp (s k - m)`, with
  `exp ⊥ = 0`, `exp ⊤ = ⊤`) and normalised by the row sum `l = ∑ k, p k`. Two spellings of the normalisation occur:
  dividing every entry by `l`, and multiplying it by the reciprocal `1 / l`; and a weighted sum `∑ k, w k * v k` may be
  normalised entry by entry before the sum or once after it. On the extended reals these agree as soon as `l` is not
  zero — division by zero has its own corner — and multiplication by `l⁻¹`, a nonnegative number that is never `⊤`,
  distributes over any sum, infinite terms included. When every score is a real number and the shift is not `⊤` each
  `s k - m` is not `⊥`, so each `p k` is positive and `l` is positive: that is the only use of finiteness.
-/
import Idealize.ShloMosaic.PureOps.Ideal

namespace Cert.Lib.SoftmaxRow

open Idealize.ShloMosaic

/-- A finite nonnegative factor comes out of a finite sum of extended reals, whatever the terms. -/
theorem sum_mul_of_nonneg_of_ne_top {ι : Type*} (t : Finset ι) (a : ι → EReal) {c : EReal} (h0 : 0 ≤ c) (ht : c ≠ ⊤) :
    (∑ k ∈ t, a k) * c = ∑ k ∈ t, a k * c := by
  classical
  induction t using Finset.induction_on with
  | empty => simp
  | insert k t hk ih =>
    rw [Finset.sum_insert hk, Finset.sum_insert hk, EReal.right_distrib_of_nonneg_of_ne_top h0 ht, ih]

/-- A dot product whose left factors were each scaled by a finite nonnegative `c` is the dot product scaled by `c`. -/
theorem scaled_dot {n : Nat} (a b : Fin n → EReal) {c : EReal} (h0 : 0 ≤ c) (ht : c ≠ ⊤) :
    ∑ d, (a d * c) * b d = (∑ d, a d * b d) * c := by
  rw [sum_mul_of_nonneg_of_ne_top _ _ h0 ht]
  exact Finset.sum_congr rfl fun d _ => mul_right_comm _ _ _

theorem exp_nonneg (x : EReal) : 0 ≤ Ideal.exp x := by
  induction x using EReal.rec with
  | bot => exact le_of_eq Ideal.exp_bot.symm
  | coe r => rw [Ideal.exp_coe]; exact EReal.coe_nonneg.2 (Real.exp_pos r).le
  | top => rw [Ideal.exp_top]; exact le_top

theorem exp_pos_of_ne_bot {x : EReal} (h : x ≠ ⊥) : 0 < Ideal.exp x := by
  induction x using EReal.rec with
  | bot => exact absurd rfl h
  | coe r => rw [Ideal.exp_coe]; exact EReal.coe_pos.2 (Real.exp_pos r)
  | top => rw [Ideal.exp_top]; exact EReal.zero_lt_top

/-- A real number minus anything but `⊤` is not `⊥`. -/
theorem coe_sub_ne_bot (r : ℝ) {m : EReal} (hm : m ≠ ⊤) : (r : EReal) - m ≠ ⊥ := by
  induction m using EReal.rec with
  | bot => simp
  | coe q => rw [← EReal.coe_sub]; exact EReal.coe_ne_bot _
  | top => exact absurd rfl hm

/-- The running maximum of a row none of whose entries is `⊤`, started below `⊤`, is not `⊤`. -/
theorem fold_max_ne_top {n : Nat} {b : EReal} (hb : b ≠ ⊤) (s : Fin n → EReal) (hs : ∀ k, s k ≠ ⊤) :
    (Finset.univ : Finset (Fin n)).fold max b s ≠ ⊤ := by
  apply ne_of_lt
  rw [Finset.fold_max_lt]
  exact ⟨lt_top_iff_ne_top.2 hb, fun k _ => lt_top_iff_ne_top.2 (hs k)⟩

section Row

variable {n : Nat} (s : Fin n → EReal) (m : EReal)

/-- The row sum of the shifted exponentials is positive when the row is not empty, its scores are real and the shift
    is not `⊤`. -/
theorem rowsum_pos (hn : 0 < n) (hs : ∀ k, ∃ r : ℝ, s k = r) (hm : m ≠ ⊤) :
    0 < ∑ k, Ideal.exp (s k - m) := by
  have h0 : 0 < Ideal.exp (s ⟨0, hn⟩ - m) := by
    obtain ⟨r, hr⟩ := hs ⟨0, hn⟩
    rw [hr]
    exact exp_pos_of_ne_bot (coe_sub_ne_bot r hm)
  exact lt_of_lt_of_le h0
    (Finset.single_le_sum (f := fun k => Ideal.exp (s k - m)) (fun k _ => exp_nonneg _) (Finset.mem_univ _))

/-- An entry times the reciprocal of a nonzero row sum is the entry divided by the row sum. -/
theorem mul_one_div {l : EReal} (hl : l ≠ 0) (p : EReal) : p * Ideal.div 1 l = Ideal.div p l := by
  unfold Ideal.div
  rw [if_neg hl, if_neg hl, one_mul]

/-- A weighted sum normalised once after the sum, by the reciprocal of a positive row sum, is the sum of the
    entrywise-normalised weights times the values — for any values, infinite ones included. -/
theorem sum_mul_one_div {l : EReal} (hl : 0 < l) (p v : Fin n → EReal) :
    (∑ k, p k * v k) * Ideal.div 1 l = ∑ k, Ideal.div (p k) l * v k := by
  have hl0 : l ≠ 0 := hl.ne'
  have e1 : Ideal.div 1 l = l⁻¹ := by unfold Ideal.div; rw [if_neg hl0, one_mul]
  rw [e1, sum_mul_of_nonneg_of_ne_top _ _ (EReal.inv_nonneg_of_nonneg hl.le) (EReal.inv_lt_top l).ne]
  refine Finset.sum_congr rfl fun k _ => ?_
  unfold Ideal.div
  rw [if_neg hl0]
  exact mul_right_comm _ _ _

end Row

end Cert.Lib.SoftmaxRow
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.OnlineSoftmax.lean ====
/-
  The online softmax recurrence equals the textbook softmax when every score is a real number.

  A row of `(T + 1) * n` real scores is cut into `T + 1` consecutive tiles of `n` scores.  Walking the tiles and keeping
  the running maximum `M` and the running sum `L` of the exponentials of the scores seen so far relative to `M`, the
  update on meeting a tile with maximum `m` is `M' = max M m`, `L' = L * exp (M - M') + ∑ exp (z j - M')`.  Because
  `exp (z - M) * exp (M - M') = exp (z - M')`, the pair after tile `k` is the maximum of the scores of tiles `0..k` and
  the sum of their exponentials relative to that maximum.  After the last tile `M` is the maximum of the whole row and
  `L = ∑ exp (z - M) ≥ 1 > 0`, so `exp (z - (M + log L)) = exp (z - M) / L`: the textbook softmax entry.

  On the extended reals the only care needed is to see that every quantity met along the way is the image of a real
  number; the starting pair `(⊥, 0)` contributes `0 * exp ⊥ = 0` to the first sum.
-/
import proofs.«122219_j74990128988321_1_alg».proof.Proof.Spec
import proofs.«122219_j74990128988321_1_alg».proof.Proof.LibSoftmaxRow
import proofs.«122219_j74990128988321_1_alg».proof.Proof.LibSumBlocks
import Mathlib.Analysis.SpecialFunctions.Log.Basic

noncomputable section

namespace Cert.OnlineSoftmax

open Idealize.ShloMosaic
open scoped BigOperators

/-! ### Real numbers inside the extended reals -/

/-- The inclusion of the reals commutes with finite sums. -/
theorem coe_sum {ι : Type*} (t : Finset ι) (f : ι → ℝ) :
    ((∑ k ∈ t, f k : ℝ) : EReal) = ∑ k ∈ t, (f k : EReal) := by
  classical
  induction t using Finset.induction_on with
  | empty => simp
  | insert k t hk ih => rw [Finset.sum_insert hk, Finset.sum_insert hk, EReal.coe_add, ih]

/-- The inclusion of the reals commutes with the maximum of two numbers. -/
theorem coe_max (a b : ℝ) : ((max a b : ℝ) : EReal) = max (a : EReal) (b : EReal) :=
  EReal.coe_strictMono.monotone.map_max

/-- Dividing by one changes nothing, at the infinities too. -/
theorem div_one (x : EReal) : Ideal.div x 1 = x := by
  have h := Ideal.div_coe (y := (1 : ℝ)) one_ne_zero x
  simpa using h

/-- The maximum, taken from `⊥`, of a nonempty family of real numbers is a real number: it bounds the family and is
    one of its members. -/
theorem fold_max_coe {n : ℕ} (hn : 0 < n) (f : Fin n → ℝ) :
    ∃ m : ℝ, (Finset.univ : Finset (Fin n)).fold max ⊥ (fun j => (f j : EReal)) = (m : EReal)
      ∧ (∀ j, f j ≤ m) ∧ ∃ j, f j = m := by
  have hne : (Finset.univ : Finset (Fin n)).Nonempty := ⟨⟨0, hn⟩, Finset.mem_univ _⟩
  obtain ⟨j0, _, hj0⟩ := Finset.exists_mem_eq_sup' hne f
  refine ⟨Finset.univ.sup' hne f, ?_, fun j => Finset.le_sup' f (Finset.mem_univ j), ⟨j0, hj0.symm⟩⟩
  apply le_antisymm
  · rw [Finset.fold_max_le]
    exact ⟨bot_le, fun j _ => EReal.coe_le_coe_iff.2 (Finset.le_sup' f (Finset.mem_univ j))⟩
  · rw [Finset.le_fold_max]
    exact Or.inr ⟨j0, Finset.mem_univ _, by rw [hj0]⟩

/-! ### One step of the recurrence on real data -/

/-- The first tile, met from the starting pair `(⊥, 0)`: the pair becomes the tile's maximum and the sum of the
    tile's exponentials relative to it. -/
theorem stepRow_bot {n : ℕ} (f : Fin n → ℝ) (m : ℝ)
    (hm : (Finset.univ : Finset (Fin n)).fold max ⊥ (fun j => (f j : EReal)) = (m : EReal)) :
    Cert.Spec.stepRow (fun j => (f j : EReal)) (⊥, 0)
      = ((m : EReal), ((∑ j, Real.exp (f j - m) : ℝ) : EReal)) := by
  unfold Cert.Spec.stepRow Cert.Spec.tileMax
  simp only [hm, max_bot_left, EReal.bot_sub, Ideal.exp_bot, mul_zero, zero_add, ← EReal.coe_sub, Ideal.exp_coe,
    ← coe_sum]

/-- A later tile, met from a pair of real numbers `(M, L)`: the new maximum is `max M m` and the old sum is rescaled
    by `exp (M - max M m)` before the tile's exponentials are added. -/
theorem stepRow_coe {n : ℕ} (f : Fin n → ℝ) (m M L : ℝ)
    (hm : (Finset.univ : Finset (Fin n)).fold max ⊥ (fun j => (f j : EReal)) = (m : EReal)) :
    Cert.Spec.stepRow (fun j => (f j : EReal)) ((M : EReal), (L : EReal))
      = (((max M m : ℝ) : EReal),
          ((L * Real.exp (M - max M m) + ∑ j, Real.exp (f j - max M m) : ℝ) : EReal)) := by
  unfold Cert.Spec.stepRow Cert.Spec.tileMax
  simp only [hm, ← coe_max, ← EReal.coe_sub, Ideal.exp_coe, ← EReal.coe_mul, ← coe_sum, ← EReal.coe_add]

/-! ### The recurrence after `k` tiles -/

/-- After tile `k` the running pair is a pair of real numbers: the maximum of the scores of tiles `0..k` (it bounds
    them and is one of them) and the sum of their exponentials relative to that maximum. -/
theorem runRow_coe {n : ℕ} (hn : 0 < n) (z : ℕ → Fin n → ℝ) (s : ℕ → Fin n → EReal) (k : ℕ)
    (hs : ∀ i ≤ k, ∀ j, s i j = (z i j : EReal)) :
    ∃ M L : ℝ, Cert.Spec.runRow s k = ((M : EReal), (L : EReal))
      ∧ (∀ i ≤ k, ∀ j, z i j ≤ M) ∧ (∃ i ≤ k, ∃ j, z i j = M)
      ∧ L = ∑ i ∈ Finset.range (k + 1), ∑ j, Real.exp (z i j - M) := by
  induction k with
  | zero =>
    obtain ⟨m, hm, hle, j0, hj0⟩ := fold_max_coe hn (z 0)
    have hs0 : s 0 = fun j => (z 0 j : EReal) := funext fun j => hs 0 le_rfl j
    refine ⟨m, ∑ j, Real.exp (z 0 j - m), ?_, ?_, ⟨0, le_rfl, j0, hj0⟩, ?_⟩
    · show Cert.Spec.stepRow (s 0) (⊥, 0) = _
      rw [hs0]
      exact stepRow_bot (z 0) m hm
    · intro i hi j
      obtain rfl : i = 0 := Nat.le_zero.1 hi
      exact hle j
    · rw [Finset.sum_range_one]
  | succ k ih =>
    obtain ⟨M, L, hrun, hle, ⟨i0, hi0, j0, hj0⟩, hL⟩ := ih (fun i hi j => hs i (Nat.le_succ_of_le hi) j)
    obtain ⟨m, hm, hmle, j1, hj1⟩ := fold_max_coe hn (z (k + 1))
    have hsk : s (k + 1) = fun j => (z (k + 1) j : EReal) := funext fun j => hs (k + 1) le_rfl j
    refine ⟨max M m, L * Real.exp (M - max M m) + ∑ j, Real.exp (z (k + 1) j - max M m), ?_, ?_, ?_, ?_⟩
    · show Cert.Spec.stepRow (s (k + 1)) (Cert.Spec.runRow s k) = _
      rw [hsk, hrun]
      exact stepRow_coe (z (k + 1)) m M L hm
    · intro i hi j
      rcases Nat.lt_or_ge i (k + 1) with h | h
      · exact le_trans (hle i (Nat.lt_succ_iff.1 h) j) (le_max_left _ _)
      · obtain rfl : i = k + 1 := le_antisymm hi h
        exact le_trans (hmle j) (le_max_right _ _)
    · rcases le_total M m with h | h
      · exact ⟨k + 1, le_rfl, j1, by rw [hj1, max_eq_right h]⟩
      · exact ⟨i0, Nat.le_succ_of_le hi0, j0, by rw [hj0, max_eq_left h]⟩
    · rw [Finset.sum_range_succ _ (k + 1), hL, Finset.sum_mul]
      congr 1
      refine Finset.sum_congr rfl fun i _ => ?_
      rw [Finset.sum_mul]
      refine Finset.sum_congr rfl fun j _ => ?_
      rw [← Real.exp_add]
      congr 1
      ring

/-! ### The row cut into tiles -/

/-- The real scores of tile `i` of a row of `(T + 1) * n` scores (zero past the last tile, which is never met). -/
def tileOf {T n N : ℕ} (hN : (T + 1) * n = N) (Z : Fin N → ℝ) (i : ℕ) (b : Fin n) : ℝ :=
  if h : i < T + 1 then Z (SumBlocks.idx hN ⟨i, h⟩ b) else 0

theorem tileOf_fin {T n N : ℕ} (hN : (T + 1) * n = N) (Z : Fin N → ℝ) (a : Fin (T + 1)) (b : Fin n) :
    tileOf hN Z a.val b = Z (SumBlocks.idx hN a b) := by
  unfold tileOf
  rw [dif_pos a.isLt]

/-- Every index of the row is offset `b` of tile `a` for some `a` and `b`. -/
theorem exists_idx {m n N : ℕ} (hN : m * n = N) (hn : 0 < n) (k : Fin N) :
    ∃ (a : Fin m) (b : Fin n), k = SumBlocks.idx hN a b := by
  have hk : k.val < n * m := by rw [Nat.mul_comm, hN]; exact k.isLt
  refine ⟨⟨k.val / n, Nat.div_lt_of_lt_mul hk⟩, ⟨k.val % n, Nat.mod_lt _ hn⟩, Fin.ext ?_⟩
  rw [SumBlocks.idx_val]
  exact (Nat.div_add_mod' k.val n).symm

/-! ### The two softmaxes agree -/

/-- The kernel's entry `exp (z - lse)`, with `lse` formed by the online recurrence over the tiles, is the reference's
    softmax entry, for a row of real scores. -/
theorem online_eq_softmax {T n N : ℕ} (hN : (T + 1) * n = N) (hn : 0 < n) (Z : Fin N → ℝ)
    (s : ℕ → Fin n → EReal) (hs : ∀ (k : ℕ) (h : k < T + 1) (j : Fin n), s k j = ((Z (SumBlocks.idx hN ⟨k, h⟩ j) : ℝ) : EReal))
    (t : Fin (T + 1)) (j : Fin n) :
    Ideal.exp (((Z (SumBlocks.idx hN t j) : ℝ) : EReal) - Cert.Spec.lseRow s T)
      = Cert.Spec.softmaxRow (fun k => ((Z k : ℝ) : EReal)) (SumBlocks.idx hN t j) := by
  have hsz : ∀ i ≤ T, ∀ b, s i b = (tileOf hN Z i b : EReal) := by
    intro i hi b
    have h : i < T + 1 := Nat.lt_succ_of_le hi
    rw [hs i h b]
    exact congrArg _ (tileOf_fin hN Z ⟨i, h⟩ b).symm
  obtain ⟨M, L, hrun, hle, ⟨i0, hi0, j0, hj0⟩, hL⟩ := runRow_coe hn (tileOf hN Z) s T hsz
  have hNpos : 0 < N := by rw [← hN]; exact Nat.mul_pos (Nat.succ_pos T) hn
  -- the maximum of the whole row is the running maximum after the last tile
  obtain ⟨G, hG, hGle, k0, hk0⟩ := fold_max_coe hNpos Z
  have hGM : G = M := by
    apply le_antisymm
    · obtain ⟨a, b, hab⟩ := exists_idx hN hn k0
      rw [← hk0, hab, ← tileOf_fin hN Z a b]
      exact hle a.val (Nat.lt_succ_iff.1 a.isLt) b
    · rw [← hj0, tileOf_fin hN Z ⟨i0, Nat.lt_succ_of_le hi0⟩ j0]
      exact hGle _
  rw [hGM] at hG
  -- the running sum after the last tile is the sum over the whole row
  have hLsum : L = ∑ k : Fin N, Real.exp (Z k - M) := by
    rw [hL, SumBlocks.sum_eq hN, Finset.sum_range]
    refine Finset.sum_congr rfl fun a _ => Finset.sum_congr rfl fun b _ => ?_
    rw [tileOf_fin]
  have hLpos : 0 < L := by
    rw [hLsum]
    exact Finset.sum_pos (fun k _ => Real.exp_pos _) ⟨⟨0, hNpos⟩, Finset.mem_univ _⟩
  have lhs : Ideal.exp (((Z (SumBlocks.idx hN t j) : ℝ) : EReal) - Cert.Spec.lseRow s T)
      = ((Real.exp (Z (SumBlocks.idx hN t j) - (M + Real.log L)) : ℝ) : EReal) := by
    unfold Cert.Spec.lseRow
    rw [hrun]
    simp only [Ideal.log_coe, if_neg (not_le.2 hLpos), ← EReal.coe_add, ← EReal.coe_sub, Ideal.exp_coe]
  have rhs : Cert.Spec.softmaxRow (fun k => ((Z k : ℝ) : EReal)) (SumBlocks.idx hN t j)
      = ((Real.exp (Z (SumBlocks.idx hN t j) - M) * (1 / L) : ℝ) : EReal) := by
    unfold Cert.Spec.softmaxRow
    simp only [div_one, hG, max_bot_left, zero_add, ← EReal.coe_sub, Ideal.exp_coe, ← coe_sum]
    rw [← hLsum, Ideal.div_coe hLpos.ne', ← EReal.coe_mul]
  rw [lhs, rhs]
  congr 1
  rw [show Z (SumBlocks.idx hN t j) - (M + Real.log L) = (Z (SumBlocks.idx hN t j) - M) - Real.log L by ring,
    Real.exp_sub, Real.exp_log hLpos, div_eq_mul_one_div]

end Cert.OnlineSoftmax

end
-- ==== Proof.Val.Bridge.lean ====
/-
  The kernel's result, entry by entry, for real inputs. The second sweep leaves exp (score - lse) where lse is what the
  first sweep left in the column: the recurrence's normaliser over the row's 50 tiles of scores. With every input a real
  number every score is a real number, the atoms 2560 t + j are exactly the tile offsets, and the recurrence's law makes
  exp (score - lse) the row's softmax entry as the reference forms it.
-/
import proofs.«122219_j74990128988321_1_alg».proof.Proof.KI.Run
import proofs.«122219_j74990128988321_1_alg».proof.Proof.Val.ReduceValue
import proofs.«122219_j74990128988321_1_alg».proof.Proof.Val.NormValue
import proofs.«122219_j74990128988321_1_alg».proof.Proof.OnlineSoftmax

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Val

theorem tiles_eq : (49 + 1) * 2560 = 128000 := by norm_num

section Bridge
variable (m : (ℓ : Loc nD τ sig) → Buf (Elt Ideal) ℓ)

/-- A score of real inputs is the real dot product. -/
theorem score_coe (xr : S32x1024.Idx → ℝ) (ar : S128000x1024.Idx → ℝ) (x : S32x1024.Idx → EReal) (A : S128000x1024.Idx → EReal)
    (hx : ∀ i, x i = (xr i : EReal)) (hA : ∀ i, A i = (ar i : EReal)) (b : Fin 32) (n : Fin 128000) :
    Cert.Spec.score x A b n = ((∑ d : Fin 1024, xr (ix2 b d) * ar (ix2 n d) : ℝ) : EReal) := by
  unfold Cert.Spec.score
  rw [Cert.OnlineSoftmax.coe_sum]
  refine Finset.sum_congr rfl fun d _ => ?_
  rw [hx, hA, EReal.coe_mul]

/-- Row `b`'s scores against tile `kk`, as the first sweep meets them, are the scores against atoms 2560 kk + j. -/
theorem tileScores_eq (c : Dev nD) (b : Fin 32) (kk : ℕ) (h : kk < 49 + 1) (jj : Fin 2560) :
    tileScores (V0 m) c b kk jj
      = Cert.Spec.score (m ((c : Thread nD τ).loc main_arg0)) (m ((c : Thread nD τ).loc main_arg1)) b (SumBlocks.idx tiles_eq ⟨kk, h⟩ jj) := by
  have h' : kk < cfg0.N := by rw [show cfg0.N = 50 from N_0]; exact h
  rw [tileScores_of_lt (V0 m) c b kk h' jj, scores_apply]
  unfold Cert.Spec.score
  refine Finset.sum_congr rfl fun d _ => ?_
  rw [rows0_apply, tile0_apply]
  rfl

/-- THE KERNEL'S RESULT at (row, atom), for real inputs: the reference's softmax entry. -/
theorem kernel_apply (c : Dev nD)
    (hx : ∀ i, ∃ r : ℝ, m ((c : Thread nD τ).loc main_arg0) i = (r : EReal))
    (hA : ∀ i, ∃ r : ℝ, m ((c : Thread nD τ).loc main_arg1) i = (r : EReal))
    (b : Fin 32) (k : Fin 128000) :
    (dat1 (V1 m) c).arrAt 3 cfg1.N (ix2 b k)
      = Cert.Spec.softmaxRow (fun n => Cert.Spec.score (m ((c : Thread nD τ).loc main_arg0)) (m ((c : Thread nD τ).loc main_arg1)) b n) k := by
  choose xr hxr using hx
  choose ar har using hA
  have hZ := score_coe xr ar (m ((c : Thread nD τ).loc main_arg0)) (m ((c : Thread nD τ).loc main_arg1)) hxr har b
  rw [final1_3]
  show Ideal.exp (Cert.Spec.score (V1 m c main_arg0) (V1 m c main_arg1) b k - V1 m c main_v0 (ix2 b (0 : Fin 1))) = _
  rw [V1_main_arg0, V1_main_arg1, V1_main_v0, final0_2]
  show Ideal.exp (Cert.Spec.score (m ((c : Thread nD τ).loc main_arg0)) (m ((c : Thread nD τ).loc main_arg1)) b k - Cert.Spec.lseRow (tileScores (V0 m) c b) 49) = _
  obtain ⟨t, j, rfl⟩ := Cert.OnlineSoftmax.exists_idx tiles_eq (by norm_num) k
  have hs : ∀ (kk : ℕ) (h : kk < 49 + 1) (jj : Fin 2560),
      tileScores (V0 m) c b kk jj = (((fun n => ∑ d : Fin 1024, xr (ix2 b d) * ar (ix2 n d)) (SumBlocks.idx tiles_eq ⟨kk, h⟩ jj) : ℝ) : EReal) :=
    fun kk h jj => (tileScores_eq m c b kk h jj).trans (hZ _)
  have key := Cert.OnlineSoftmax.online_eq_softmax tiles_eq (by norm_num) (fun n => ∑ d : Fin 1024, xr (ix2 b d) * ar (ix2 n d))
    (tileScores (V0 m) c b) hs t j
  rw [hZ]
  refine key.trans ?_
  refine congrArg (fun Z => Cert.Spec.softmaxRow Z (SumBlocks.idx tiles_eq t j)) (funext fun n => ?_)
  exact (hZ n).symm

end Bridge

end Cert.KernelIdeal.Hand

end
-- ==== Proof.RefValue.lean ====
/-
  The reference's side, and the finiteness of the inputs.

  The reference computes, for each row b of the input, the softmax of the row's scores against the 128000 atoms: the
  scores divided by one, shifted by their maximum, exponentiated, and divided by the sum of those exponentials. Read at
  an index (b, k) its result is the row formula of the specification at the scores of row b. And the precondition,
  which says that every entry of either input has absolute value below plus infinity, makes every entry a real number.
-/
import proofs.«122219_j74990128988321_1_alg».proof.Proof.Gen.ReferenceIdeal.Read
import proofs.«122219_j74990128988321_1_alg».proof.Proof.Gen.Pre_finite_inputs
import proofs.«122219_j74990128988321_1_alg».proof.Proof.Spec
import Idealize.ShloMosaic.Lib.ReduceAll
import Idealize.ShloMosaic.Lib.ValueIdx
import Idealize.ShloMosaic.Lib.Pipeline.Value
import Idealize.ShloMosaic.PureOps.Ideal.Laws
import Idealize.ShloMosaic.PureOps.Reduce

noncomputable section

namespace Cert.RefValue

open Idealize.ShloMosaic Idealize.ShloMosaic.ValueIdx Idealize.SL.Sem

/-! ## Three bit patterns as extended reals -/

/-- The pattern of 1.0 denotes one: the significand 2^23 times 2^(-23). -/
theorem ofBits_one_f32 : Ideal.ofBits .f32 0x3F800000#32 = 1 := by
  simp [Ideal.ofBits, Ideal.ieee]
  rw [← EReal.coe_mul, ← EReal.coe_one]
  norm_num

/-- The pattern of minus infinity denotes the bottom element. -/
theorem ofBits_negInf_f32 : Ideal.ofBits .f32 0xFF800000#32 = ⊥ := by
  simp [Ideal.ofBits, Ideal.ieee]

/-- The pattern of plus infinity denotes the top element. -/
theorem ofBits_posInf_f32 : Ideal.ofBits .f32 0x7F800000#32 = ⊤ := by
  simp [Ideal.ofBits, Ideal.ieee]

/-! ## The reference, stage by stage, read at an index -/

section Reference

open Cert.ReferenceIdeal Cert.ReferenceIdeal.Gen Cert.ReferenceIdeal.Read

variable (x0 : (⟨S32x1024, .f32⟩ : BufTy).Contents (Elt Ideal)) (x1 : (⟨S128000x1024, .f32⟩ : BufTy).Contents (Elt Ideal))

/-- The scores divided by one: the dot product of row b of the input with atom n, over the splat of 1.0. -/
theorem v2_apply (b : Fin 32) (n : Fin 128000) :
    val_main_v2 (F := Ideal) x0 x1 (ix2 b n) = Ideal.div (Cert.Spec.score x0 x1 b n) 1 := by
  have el : ∀ d : Fin 1024, lidx_main_v0 (ix2 b n) d = ix2 b d := fun d =>
    funext fun a => Fin.ext (by match a with | ⟨0, _⟩ => rfl | ⟨1, _⟩ => rfl)
  have er : ∀ d : Fin 1024, ridx_main_v0 (ix2 b n) d = ix2 n d := fun d =>
    funext fun a => Fin.ext (by match a with | ⟨0, _⟩ => rfl | ⟨1, _⟩ => rfl)
  rw [val_main_v2_apply, val_main_v0_apply, val_main_v1_apply, val_main_cst_apply]
  simp only [el, er, Ideal.hostDivf_def, Ideal.ofBits_def, ofBits_one_f32, Cert.Spec.score]

/-- The row maximum: the reduce with a maximum body over the atoms, at row b, is the fold of the maximum from minus
    infinity over the row's scaled scores. -/
theorem v3_apply (b : Fin 32) :
    val_main_v3 (F := Ideal) x0 x1 (ix1 b)
      = (Finset.univ : Finset (Fin 128000)).fold max ⊥ fun n => Ideal.div (Cert.Spec.score x0 x1 b n) 1 := by
  have h : S32x128000.Reduces [1] S32 := by decide
  unfold val_main_v3
  rw [Host.reduce_eq_fold_single FloatOps.maximumf _ _ reducesTo_S32x128000_S32_d1 h h_S_]
  have hf : (val_main_v2 (F := Ideal) x0 x1 ∘ h.lift (ix1 b))
      = fun n : Fin 128000 => Ideal.div (Cert.Spec.score x0 x1 b n) 1 :=
    funext fun (n : Fin 128000) => by
      have e : h.lift (ix1 b) n = ix2 b n :=
        funext fun a => Fin.ext (by match a with | ⟨0, _⟩ => rfl | ⟨1, _⟩ => rfl)
      show val_main_v2 (F := Ideal) x0 x1 (h.lift (ix1 b) n) = _
      rw [e, v2_apply]
  rw [hf, val_main_cst_0_apply, Ideal.ofBits_def, ofBits_negInf_f32]
  rfl

/-- The shift: the row maximum broadcast back over the atoms, after one more maximum against minus infinity. -/
theorem v7_apply (b : Fin 32) (n : Fin 128000) :
    val_main_v7 (F := Ideal) x0 x1 (ix2 b n)
      = max ⊥ ((Finset.univ : Finset (Fin 128000)).fold max ⊥ fun k => Ideal.div (Cert.Spec.score x0 x1 b k) 1) := by
  have e : idx_main_v6 (idx_main_v7 (ix2 b n)) = ix1 b :=
    funext fun a => Fin.ext (by match a with | ⟨0, _⟩ => rfl)
  rw [val_main_v7_apply, val_main_v6_apply, val_main_v5_apply, val_main_v4_apply, val_main_cst_1_apply, e, v3_apply]
  simp only [Ideal.maximumf_def, Ideal.ofBits_def, ofBits_negInf_f32]

/-- The numerator: the exponential of the shifted score. -/
theorem v9_apply (b : Fin 32) (n : Fin 128000) :
    val_main_v9 (F := Ideal) x0 x1 (ix2 b n)
      = Ideal.exp (Ideal.div (Cert.Spec.score x0 x1 b n) 1
          - max ⊥ ((Finset.univ : Finset (Fin 128000)).fold max ⊥ fun k => Ideal.div (Cert.Spec.score x0 x1 b k) 1)) := by
  rw [val_main_v9_apply, val_main_v8_apply, v2_apply, v7_apply]
  simp only [Ideal.hostUnary_exp_def, Ideal.subf_def]

end Reference

/-- The reference's result at (b, k) is the row formula of the specification at the scores of row b. -/
theorem reference_apply (x0 : (⟨Cert.ReferenceIdeal.S32x1024, .f32⟩ : BufTy).Contents (Elt Ideal)) (x1 : (⟨Cert.ReferenceIdeal.S128000x1024, .f32⟩ : BufTy).Contents (Elt Ideal)) (b : Fin 32) (k : Fin 128000) :
    Cert.ReferenceIdeal.Read.val_main_v13 (F := Ideal) x0 x1 (ValueIdx.ix2 b k) = Cert.Spec.softmaxRow (fun n => Cert.Spec.score x0 x1 b n) k := by
  have e : ∀ n : Fin 128000, Cert.ReferenceIdeal.Read.idx_main_v10
      (Cert.ReferenceIdeal.Read.idx_main_v11 (Cert.ReferenceIdeal.Read.idx_main_v12 (ix2 b k))) n = ix2 b n := fun n =>
    funext fun a => Fin.ext (by match a with | ⟨0, _⟩ => rfl | ⟨1, _⟩ => rfl)
  rw [Cert.ReferenceIdeal.Read.val_main_v13_apply, Cert.ReferenceIdeal.Read.val_main_v12_apply,
    Cert.ReferenceIdeal.Read.val_main_v11_apply, Cert.ReferenceIdeal.Read.val_main_v10_apply,
    Cert.ReferenceIdeal.Read.val_main_cst_2_apply, v9_apply]
  simp only [e, v9_apply, Ideal.hostDivf_def, Ideal.ofBits_def, Ideal.ofBits_zero_f32]
  unfold Cert.Spec.softmaxRow
  rfl

/-! ## The precondition: every input entry is a real number -/

section Finite

/-- The scalar shape has one index. -/
instance subsingleton_scalarIdx : Subsingleton Cert.Pre_finite_inputs.S_.Idx := ⟨fun a b => funext fun d => d.elim0⟩

/-- An extended real whose absolute value, the larger of it and its negation, is below plus infinity is a real number:
    at either infinity that larger one is plus infinity. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison of its absolute value against the splat of plus infinity came out true. -/
theorem real_of_cmp {s : Shape} (hb : Cert.Pre_finite_inputs.S_.BroadcastsInDim s (![] : Fin 0 → Fin s.rank))
    (x : FVec Ideal s .f32) (i : s.Idx)
    (h : cmpf .olt (Host.absf x) (broadcastInDim s ![] hb (constant Cert.Pre_finite_inputs.S_ .f32 0x7F800000#32)) i = 1#1) :
    ∃ r : ℝ, x i = (r : EReal) := by
  have hc : broadcastInDim s ![] hb (constant (F := Ideal) Cert.Pre_finite_inputs.S_ .f32 0x7F800000#32) i
      = Ideal.ofBits .f32 0x7F800000#32 :=
    broadcastInDim_apply _ hb _ i ValueIdx.ix0 (fun a => a.elim0)
  rw [cmpf_apply, hc, ofBits_posInf_f32] at h
  have h2 : BitVec.ofBool (decide (max (x i) (-(x i)) < ⊤)) = 1#1 := h
  have h' : max (x i) (-(x i)) < ⊤ := by
    by_contra hn
    rw [decide_eq_false hn] at h2
    exact absurd h2 (by decide)
  exact real_of_abs_lt_top _ h'

/-- Under the precondition, that the conjunction of "every entry of the first input has absolute value below plus
    infinity" and the same of the second came out true, every entry of either input is a real number. -/
theorem finite_of_fn [Cert.Pre_finite_inputs.Facts] (x0 : FVec Ideal Cert.Pre_finite_inputs.S32x1024 .f32)
    (x1 : FVec Ideal Cert.Pre_finite_inputs.S128000x1024 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  exact ⟨fun i => real_of_cmp _ x0 i (Host.reduce_andi_all _ _ _ _ _ ha i),
    fun i => real_of_cmp _ x1 i (Host.reduce_andi_all _ _ _ _ _ hb i)⟩

end Finite

end Cert.RefValue

end
-- ==== Proof.lean ====
/-
  The certificate of a two-sweep streaming softmax against the textbook one.

  The kernel computes, for 32 rows x and 128000 atoms A (1024 features each), the scores z = x · Aᵀ and their softmax along
  the atoms in two sweeps of 50 tiles of 2560 atoms. The first sweep keeps per row a running maximum m and a running sum
  l of exp (score - m), replacing (m, l) at each tile by (m', l · exp (m - m') + Σ exp (s - m')) with m' = max m (max s),
  from (-∞, 0), and ends with lse = m + log l. The second sweep writes exp (z - lse). The reference divides the scores by
  one, subtracts the row maximum, exponentiates and divides by the row sum.

  On the extended reals, with every input a real number (the precondition), both are the same array: every score is a
  real number; after tile k the running pair is (M_k, Σ exp (z - M_k)) over the scores met so far, because
  exp (a - M) · exp (M - M') = exp (a - M') and a finite positive factor distributes over a finite sum — the two laws that
  need finiteness —; the 50 tiles exhaust the row; and for a positive real S, exp (a - (M + log S)) = exp (a - M) / S.

  The three frames say that each program runs to the end without a fault and leaves its two arguments as it found them.
  For the two kernel programs that is a launch of two pipelined regions in a row: the first with the two scratch columns
  carried from tile to tile, its one output column written back once after the last tile; the second writing one block of
  the result per tile. The idealized kernel is the kernel's own text read at the extended reals: nothing was rewritten.
-/
import proofs.«122219_j74990128988321_1_alg».proof.Defs
import proofs.«122219_j74990128988321_1_alg».proof.Proof.Gen.Kernel
import proofs.«122219_j74990128988321_1_alg».proof.Proof.Gen.KernelIdeal
import proofs.«122219_j74990128988321_1_alg».proof.Proof.Gen.ReferenceIdeal
import proofs.«122219_j74990128988321_1_alg».proof.Proof.Gen.ReferenceIdeal.Read
import proofs.«122219_j74990128988321_1_alg».proof.Proof.Gen.Pre_finite_inputs
import proofs.«122219_j74990128988321_1_alg».proof.Proof.K.Run
import proofs.«122219_j74990128988321_1_alg».proof.Proof.KI.Run
import proofs.«122219_j74990128988321_1_alg».proof.Proof.Val.Bridge
import proofs.«122219_j74990128988321_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments. -/
theorem frame_k : Cert.frame_Kernel := fun m ρ _ => Cert.Kernel.Hand.frame (F := Bits) m ρ

/-- So does its reading at the extended reals. -/
theorem frame_ki : Cert.frame_KernelIdeal := fun m ρ _ => Cert.KernelIdeal.Hand.frame (F := Ideal) m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Both programs end with the same array: entry (row, atom) of the kernel's result is the reference's softmax entry,
    the inputs being real numbers. -/
theorem algebraic : Cert.algebraic_KernelIdeal_ReferenceIdeal := by
  intro m ρ m' ρ' hpre hagree
  refine ⟨fun c => (Cert.KernelIdeal.Hand.dat1 (Cert.KernelIdeal.Hand.V1 m) c).arrAt 3 Cert.KernelIdeal.cfg1.N,
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v13_eq]
  obtain ⟨hx, hA⟩ := Cert.RefValue.finite_of_fn _ _ (hpre c)
  funext i
  obtain ⟨b, k, rfl⟩ : ∃ (b : Fin 32) (k : Fin 128000), i = ix2 b k := ⟨i 0, i 1, eq_ix2 i⟩
  rw [Cert.RefValue.reference_apply]
  exact (Cert.KernelIdeal.Hand.kernel_apply m c hx hA b k).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
